-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v155)) (v1 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_v148) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_

variable [Facts]

def fn_part1 {F : FTy → Type} [FloatOps F] (main_arg4 : FVec F S3x2x128 .f32) (main_v13 : IVec S_ 1) (main_v16 : IVec S3x2x128x128 1) : IVec S_ 1 :=
  let main_c_5 : IVec S_ 1 := constantI S_ 1 1#1
  let main_v17 : IVec S_ 1 := (fun x v => Host.reduce IntOp.andi x v reducesTo_S3x2x128x128_S_d0_1_2_3 h_S_) main_v16 main_c_5
  let main_v18 : IVec S_ 1 := andi main_v13 main_v17
  let main_v19 : FVec F S3x2x128 .f32 := Host.absf main_arg4
  let main_cst_6 : FVec F S_ .f32 := constant S_ .f32 0x7F800000#32
  let main_v20 : FVec F S3x2x128 .f32 := broadcastInDim S3x2x128 ![] bcast_S_S3x2x128 main_cst_6
  let main_v21 : IVec S3x2x128 1 := cmpf .olt main_v19 main_v20
  let main_c_7 : IVec S_ 1 := constantI S_ 1 1#1
  let main_v22 : IVec S_ 1 := (fun x v => Host.reduce IntOp.andi x v reducesTo_S3x2x128_S_d0_1_2 h_S_) main_v21 main_c_7
  let main_v23 : IVec S_ 1 := andi main_v18 main_v22
  main_v23

def fn {F : FTy → Type} [FloatOps F] (main_arg0 : FVec F S50000x128 .f32) (main_arg1 : FVec F S100000x128 .f32) (main_arg2 : FVec F S3x2x128x128 .f32) (main_arg3 : FVec F S3x2x128x128 .f32) (main_arg4 : FVec F S3x2x128 .f32) (main_arg5 : IVec S800000 32) (main_arg6 : IVec S800000 32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128x128 .f32 := Host.absf main_arg3
  let main_cst_4 : FVec F S_ .f32 := constant S_ .f32 0x7F800000#32
  let main_v15 : FVec F S3x2x128x128 .f32 := broadcastInDim S3x2x128x128 ![] bcast_S_S3x2x128x128 main_cst_4
  let main_v16 : IVec S3x2x128x128 1 := cmpf .olt main_v14 main_v15
  fn_part1 (F := F) main_arg4 main_v13 main_v16
-- ==== Kernel.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S5000x128 : Shape := ⟨2, ![5000, 128]⟩
abbrev S1x128 : Shape := ⟨2, ![1, 128]⟩

abbrev nBuf : Space → Nat
  | .hbm => 201
  | .vmem => 54
  | .smem => 0
  | _ => 0

abbrev hbmTy0_0 (i : Nat) : BufTy := match i % 128 with
  | 0 => ⟨S50000x128, .f32⟩
  | 1 => ⟨S100000x128, .f32⟩
  | 2 => ⟨S3x2x128x128, .f32⟩
  | 3 => ⟨S3x2x128x128, .f32⟩
  | 4 => ⟨S3x2x128, .f32⟩
  | 5 => ⟨S800000, .i32⟩
  | 6 => ⟨S800000, .i32⟩
  | 7 => ⟨S800000, .i32⟩
  | 8 => ⟨S800000, .i32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S100000x128, .f32⟩
  | 20 => ⟨S800000x1, .i32⟩
  | 21 => ⟨S100000x128, .f32⟩
  | 22 => ⟨S_, .f32⟩
  | 23 => ⟨S800000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S_, .f32⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S1x1x128x128, .f32⟩
  | 60 => ⟨S128x128, .f32⟩
  | 61 => ⟨S1x1x128x128, .f32⟩
  | 62 => ⟨S128x128, .f32⟩
  | 63 => ⟨S1x1x128, .f32⟩
  | 64 => ⟨S128, .f32⟩
  | 65 => ⟨S100000x128, .f32⟩
  | 66 => ⟨S1x1x128x128, .f32⟩
  | 67 => ⟨S128x128, .f32⟩
  | 68 => ⟨S1x1x128x128, .f32⟩
  | 69 => ⟨S128x128, .f32⟩
  | 70 => ⟨S1x1x128, .f32⟩
  | 71 => ⟨S128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S100000x128, .f32⟩
  | 84 => ⟨S800000x1, .i32⟩
  | 85 => ⟨S100000x128, .f32⟩
  | 86 => ⟨S_, .f32⟩
  | 87 => ⟨S800000, .f32⟩
  | 88 => ⟨S_, .f32⟩
  | 89 => ⟨S100000, .f32⟩
  | 90 => ⟨S800000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S1x1x128x128, .f32⟩
  | 124 => ⟨S128x128, .f32⟩
  | 125 => ⟨S1x1x128x128, .f32⟩
  | 126 => ⟨S128x128, .f32⟩
  | 127 => ⟨S1x1x128, .f32⟩
  | _ => ⟨S50000x128, .f32⟩

abbrev hbmTy0_1 (i : Nat) : BufTy := match i % 128 with
  | 0 => ⟨S128, .f32⟩
  | 1 => ⟨S100000x128, .f32⟩
  | 2 => ⟨S1x1x128x128, .f32⟩
  | 3 => ⟨S128x128, .f32⟩
  | 4 => ⟨S1x1x128x128, .f32⟩
  | 5 => ⟨S128x128, .f32⟩
  | 6 => ⟨S1x1x128, .f32⟩
  | 7 => ⟨S128, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S100000x128, .f32⟩
  | 20 => ⟨S800000x1, .i32⟩
  | 21 => ⟨S100000x128, .f32⟩
  | 22 => ⟨S_, .f32⟩
  | 23 => ⟨S800000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S_, .f32⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S1x1x128x128, .f32⟩
  | 60 => ⟨S128x128, .f32⟩
  | 61 => ⟨S1x1x128x128, .f32⟩
  | 62 => ⟨S128x128, .f32⟩
  | 63 => ⟨S1x1x128, .f32⟩
  | 64 => ⟨S128, .f32⟩
  | 65 => ⟨S100000x128, .f32⟩
  | 66 => ⟨S1x1x128x128, .f32⟩
  | 67 => ⟨S128x128, .f32⟩
  | 68 => ⟨S1x1x128x128, .f32⟩
  | 69 => ⟨S128x128, .f32⟩
  | 70 => ⟨S1x1x128, .f32⟩
  | 71 => ⟨S128, .f32⟩
  | 72 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_16 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_cst_20 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_22 : Ref sig .tc := ⟨.hbm, 137, rfl⟩
abbrev main_v104 : Ref sig .tc := ⟨.hbm, 138, rfl⟩
abbrev main_v105 : Ref sig .tc := ⟨.hbm, 139, rfl⟩
abbrev main_c_23 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_24 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_25 : Ref sig .tc := ⟨.hbm, 150, rfl⟩
abbrev main_v114 : Ref sig .tc := ⟨.hbm, 151, rfl⟩
abbrev main_cst_26 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_27 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_28 : Ref sig .tc := ⟨.hbm, 162, rfl⟩
abbrev main_v123 : Ref sig .tc := ⟨.hbm, 163, rfl⟩
abbrev main_v124 : Ref sig .tc := ⟨.hbm, 164, rfl⟩
abbrev main_c_29 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_30 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_31 : Ref sig .tc := ⟨.hbm, 175, rfl⟩
abbrev main_v133 : Ref sig .tc := ⟨.hbm, 176, rfl⟩
abbrev main_cst_32 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_33 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x2x128x128_S1x1x128x128_0_1_0_0 : S3x2x128x128.Slices ![0, 1, 0, 0] S1x1x128x128
  slices_S3x2x128_S1x1x128_0_1_0 : S3x2x128.Slices ![0, 1, 0] S1x1x128
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v95) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v96) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v122) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v143) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v145) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v147) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v148) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v141) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v150) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v152) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v154) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v155) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S800000 : Shape := ⟨1, ![800000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S50000 : Shape := ⟨1, ![50000]⟩
abbrev S50000x1 : Shape := ⟨2, ![50000, 1]⟩

abbrev nBuf : Space → Nat
  | .hbm => 249
  | .vmem => 0
  | .smem => 0
  | _ => 0

abbrev hbmTy0_0 (i : Nat) : BufTy := match i % 128 with
  | 0 => ⟨S50000x128, .f32⟩
  | 1 => ⟨S100000x128, .f32⟩
  | 2 => ⟨S3x2x128x128, .f32⟩
  | 3 => ⟨S3x2x128x128, .f32⟩
  | 4 => ⟨S3x2x128, .f32⟩
  | 5 => ⟨S800000, .i32⟩
  | 6 => ⟨S800000, .i32⟩
  | 7 => ⟨S800000, .i32⟩
  | 8 => ⟨S800000, .i32⟩
  | 9 => ⟨S1x1x128x128, .f32⟩
  | 10 => ⟨S128x128, .f32⟩
  | 11 => ⟨S1x1x128x128, .f32⟩
  | 12 => ⟨S128x128, .f32⟩
  | 13 => ⟨S1x1x128, .f32⟩
  | 14 => ⟨S128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S100000x128, .f32⟩
  | 26 => ⟨S800000x1, .i32⟩
  | 27 => ⟨S100000x128, .f32⟩
  | 28 => ⟨S_, .f32⟩
  | 29 => ⟨S800000, .f32⟩
  | 30 => ⟨S_, .f32⟩
  | 31 => ⟨S100000, .f32⟩
  | 32 => ⟨S800000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x1x128x128, .f32⟩
  | 47 => ⟨S128x128, .f32⟩
  | 48 => ⟨S1x1x128x128, .f32⟩
  | 49 => ⟨S128x128, .f32⟩
  | 50 => ⟨S1x1x128, .f32⟩
  | 51 => ⟨S128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S100000x128, .f32⟩
  | 85 => ⟨S_, .f32⟩
  | 86 => ⟨S50000x128, .f32⟩
  | 87 => ⟨S50000x128, .f32⟩
  | 88 => ⟨S_, .f32⟩
  | 89 => ⟨S100000x128, .f32⟩
  | 90 => ⟨S100000x128, .f32⟩
  | 91 => ⟨S1x1x128x128, .f32⟩
  | 92 => ⟨S128x128, .f32⟩
  | 93 => ⟨S1x1x128x128, .f32⟩
  | 94 => ⟨S128x128, .f32⟩
  | 95 => ⟨S1x1x128, .f32⟩
  | 96 => ⟨S128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S100000x128, .f32⟩
  | 108 => ⟨S800000x1, .i32⟩
  | 109 => ⟨S100000x128, .f32⟩
  | 110 => ⟨S_, .f32⟩
  | 111 => ⟨S800000, .f32⟩
  | 112 => ⟨S_, .f32⟩
  | 113 => ⟨S100000, .f32⟩
  | 114 => ⟨S800000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S50000x128, .f32⟩

abbrev hbmTy0_1 (i : Nat) : BufTy := match i % 128 with
  | 0 => ⟨S1x1x128x128, .f32⟩
  | 1 => ⟨S128x128, .f32⟩
  | 2 => ⟨S1x1x128x128, .f32⟩
  | 3 => ⟨S128x128, .f32⟩
  | 4 => ⟨S1x1x128, .f32⟩
  | 5 => ⟨S128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S100000x128, .f32⟩
  | 39 => ⟨S_, .f32⟩
  | 40 => ⟨S50000x128, .f32⟩
  | 41 => ⟨S50000x128, .f32⟩
  | 42 => ⟨S_, .f32⟩
  | 43 => ⟨S100000x128, .f32⟩
  | 44 => ⟨S100000x128, .f32⟩
  | 45 => ⟨S1x1x128x128, .f32⟩
  | 46 => ⟨S128x128, .f32⟩
  | 47 => ⟨S1x1x128x128, .f32⟩
  | 48 => ⟨S128x128, .f32⟩
  | 49 => ⟨S1x1x128, .f32⟩
  | 50 => ⟨S128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S_, .f32⟩
  | 65 => ⟨S800000, .f32⟩
  | 66 => ⟨S_, .f32⟩
  | 67 => ⟨S100000, .f32⟩
  | 68 => ⟨S800000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x1x128x128, .f32⟩
  | 83 => ⟨S128x128, .f32⟩
  | 84 => ⟨S1x1x128x128, .f32⟩
  | 85 => ⟨S128x128, .f32⟩
  | 86 => ⟨S1x1x128, .f32⟩
  | 87 => ⟨S128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S100000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call0_cst : Ref sig .tc := ⟨.hbm, 85, rfl⟩
abbrev main_call0_v0 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_10 : Ref sig .tc := ⟨.hbm, 97, rfl⟩
abbrev main_v72 : Ref sig .tc := ⟨.hbm, 98, rfl⟩
abbrev main_v73 : Ref sig .tc := ⟨.hbm, 99, rfl⟩
abbrev main_c_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_16 : Ref sig .tc := ⟨.hbm, 134, rfl⟩
abbrev main_v103 : Ref sig .tc := ⟨.hbm, 135, rfl⟩
abbrev main_v104 : Ref sig .tc := ⟨.hbm, 136, rfl⟩
abbrev main_c_17 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_18 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_cst_20 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_21 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_call2_cst : Ref sig .tc := ⟨.hbm, 167, rfl⟩
abbrev main_call2_v0 : Ref sig .tc := ⟨.hbm, 168, rfl⟩
abbrev main_v130 : Ref sig .tc := ⟨.hbm, 169, rfl⟩
abbrev main_call3_cst : Ref sig .tc := ⟨.hbm, 170, rfl⟩
abbrev main_call3_v0 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_22 : Ref sig .tc := ⟨.hbm, 179, rfl⟩
abbrev main_v138 : Ref sig .tc := ⟨.hbm, 180, rfl⟩
abbrev main_v139 : Ref sig .tc := ⟨.hbm, 181, rfl⟩
abbrev main_c_23 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_24 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_25 : Ref sig .tc := ⟨.hbm, 192, rfl⟩
abbrev main_v148 : Ref sig .tc := ⟨.hbm, 193, rfl⟩
abbrev main_cst_26 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_27 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_c_28 : Ref sig .tc := ⟨.hbm, 216, rfl⟩
abbrev main_v169 : Ref sig .tc := ⟨.hbm, 217, rfl⟩
abbrev main_v170 : Ref sig .tc := ⟨.hbm, 218, rfl⟩
abbrev main_c_29 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_30 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_cst_31 : Ref sig .tc := ⟨.hbm, 229, rfl⟩
abbrev main_v179 : Ref sig .tc := ⟨.hbm, 230, rfl⟩
abbrev main_cst_32 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_33 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩

abbrev nD : Nat := 1
abbrev τ : Topo := Topo.v7x

variable {F : FTy → Type} [FloatOps F]

class Facts₀ : Prop where
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S3x2x128x128_S1x1x128x128_1_0_0_0 : S3x2x128x128.Slices ![1, 0, 0, 0] S1x1x128x128
  slices_S3x2x128_S1x1x128_1_0_0 : S3x2x128.Slices ![1, 0, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_0_0_0 : S3x2x128x128.Slices ![2, 0, 0, 0] S1x1x128x128
  slices_S3x2x128_S1x1x128_2_0_0 : S3x2x128.Slices ![2, 0, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  gather_S50000x128_S800000x1_S800000x128_1_0_n_n_0_1_1128_wf : GatherDims.WF S50000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its two results named. The program is six kernel launches among
  stretches of host operations; at each boundary every buffer outside a launch's staging memory holds a
  known array (`W0`, the launch memory, through `W12`, after the last launch). Every weakly fair execution
  terminates without a fault, and in the final state the user result and the item result hold what `W12`
  holds at their buffers, while the nine arguments hold what they held at launch.
-/
import proofs.«165764_j51711406244224_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates, nothing faulting; the two results end at the last
    boundary's contents of their buffers and the arguments end as launched. -/
theorem run_values : θ_run defs (onTc (τ := τ) (main (F := F))) ⟨m, fun _ => 0, ρ⟩ (fun r => ∀ c : Dev nD,
      r.2.mem ((c.tc : Thread nD τ).loc main_v155) = W12 m ρ c (Proc.devRef .tc main_v155)
      ∧ r.2.mem ((c.tc : Thread nD τ).loc main_v148) = W12 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v155 (by decide)),
       h c _ (mem_uc main_v148 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.Spec.lean ====
/-
  The specification: three layers of a two-relation mean-aggregating graph convolution over user rows
  (50000 × 128) and item rows (100000 × 128), written once over whole arrays.

  One layer of one node type takes that type's features `h`, the mean of its in-neighbours' features
  `mean`, two 128 × 128 weight matrices and a bias row, and returns
      ((h · Ws + mean · Wn) + bias) + h,
  the bias broadcast down the rows; the first two layers are followed by max(·, 0).
  The mean over in-neighbours gathers the source rows along the edge list (a negative source index counts
  from the end), adds them into the destination rows, and divides each row by max(in-degree, 1), the
  in-degree being the same edge-wise sum of ones.
  Layer l uses slice [l, 0] of the stacked weights and biases for items and slice [l, 1] for users, and both
  node types of layer l + 1 read both outputs of layer l.
-/
import proofs.«165764_j51711406244224_1_alg».proof.Proof.Gen.ReferenceIdeal

noncomputable section

namespace Cert.Sage

open Cert.ReferenceIdeal Cert.ReferenceIdeal.Facts₀ Cert.ReferenceIdeal.Facts Idealize.ShloMosaic Idealize.ShloMosaic.TcCoe

variable {F : FTy → Type} [FloatOps F]

/-! ## The mean over in-neighbours -/

/-- Item rows: the mean of the user rows `x` over the edges `src → dst`. -/
def meanI (x : (⟨S50000x128, .f32⟩ : BufTy).Contents (Elt F)) (src dst : (⟨S800000, .i32⟩ : BufTy).Contents (Elt F)) : (⟨S100000x128, .f32⟩ : BufTy).Contents (Elt F) :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

/-- User rows: the mean of the item rows `x` over the edges `src → dst`. -/
def meanU (x : (⟨S100000x128, .f32⟩ : BufTy).Contents (Elt F)) (src dst : (⟨S800000, .i32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S100000x128_S800000x1_S800000x128_1_0_n_n_0_1_1128 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

/-! ## One layer, before the activation, and the activation -/

/-- Item rows: ((h · Ws + mean · Wn) + bias) + h. -/
def layerI (h mean : (⟨S100000x128, .f32⟩ : BufTy).Contents (Elt F)) (ws wn : (⟨S128x128, .f32⟩ : BufTy).Contents (Elt F)) (b : (⟨S128, .f32⟩ : BufTy).Contents (Elt F)) : (⟨S100000x128, .f32⟩ : BufTy).Contents (Elt F) :=
  addf (addf (addf (Host.dotGeneral dot_S100000x128_S128x128_S100000x128_1_0_0_1_n_n none h ws) (Host.dotGeneral dot_S100000x128_S128x128_S100000x128_1_0_0_1_n_n none mean wn)) (broadcastInDim S100000x128 ![0, 1] bcast_S1x128_S100000x128_0_1 (broadcastInDim S1x128 ![1] bcast_S128_S1x128_1 b))) h

/-- User rows: ((h · Ws + mean · Wn) + bias) + h. -/
def layerU (h mean : (⟨S50000x128, .f32⟩ : BufTy).Contents (Elt F)) (ws wn : (⟨S128x128, .f32⟩ : BufTy).Contents (Elt F)) (b : (⟨S128, .f32⟩ : BufTy).Contents (Elt F)) : (⟨S50000x128, .f32⟩ : BufTy).Contents (Elt F) :=
  addf (addf (addf (Host.dotGeneral dot_S50000x128_S128x128_S50000x128_1_0_0_1_n_n none h ws) (Host.dotGeneral dot_S50000x128_S128x128_S50000x128_1_0_0_1_n_n none mean wn)) (broadcastInDim S50000x128 ![0, 1] bcast_S1x128_S50000x128_0_1 (broadcastInDim S1x128 ![1] bcast_S128_S1x128_1 b))) h

/-- max(x, 0) entry by entry, on item rows. -/
def reluI (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- max(x, 0) entry by entry, on user rows. -/
def reluU (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-! ## The slices of the stacked parameters -/

/-- Matrix [l, r] of a 3 × 2 stack of 128 × 128 matrices. -/
def mat00 (w : (⟨S3x2x128x128, .f32⟩ : BufTy).Contents (Elt F)) : (⟨S128x128, .f32⟩ : BufTy).Contents (Elt F) := shapeCast _ (extractStridedSlice S1x1x128x128 ![0, 0, 0, 0] w slices_S3x2x128x128_S1x1x128x128_0_0_0_0) shapeCasts_S1x1x128x128_S128x128
def mat01 (w : (⟨S3x2x128x128, .f32⟩ : BufTy).Contents (Elt F)) : (⟨S128x128, .f32⟩ : BufTy).Contents (Elt F) := shapeCast _ (extractStridedSlice S1x1x128x128 ![0, 1, 0, 0] w slices_S3x2x128x128_S1x1x128x128_0_1_0_0) shapeCasts_S1x1x128x128_S128x128
def mat10 (w : (⟨S3x2x128x128, .f32⟩ : BufTy).Contents (Elt F)) : (⟨S128x128, .f32⟩ : BufTy).Contents (Elt F) := shapeCast _ (extractStridedSlice S1x1x128x128 ![1, 0, 0, 0] w slices_S3x2x128x128_S1x1x128x128_1_0_0_0) shapeCasts_S1x1x128x128_S128x128
def mat11 (w : (⟨S3x2x128x128, .f32⟩ : BufTy).Contents (Elt F)) : (⟨S128x128, .f32⟩ : BufTy).Contents (Elt F) := shapeCast _ (extractStridedSlice S1x1x128x128 ![1, 1, 0, 0] w slices_S3x2x128x128_S1x1x128x128_1_1_0_0) shapeCasts_S1x1x128x128_S128x128
def mat20 (w : (⟨S3x2x128x128, .f32⟩ : BufTy).Contents (Elt F)) : (⟨S128x128, .f32⟩ : BufTy).Contents (Elt F) := shapeCast _ (extractStridedSlice S1x1x128x128 ![2, 0, 0, 0] w slices_S3x2x128x128_S1x1x128x128_2_0_0_0) shapeCasts_S1x1x128x128_S128x128
def mat21 (w : (⟨S3x2x128x128, .f32⟩ : BufTy).Contents (Elt F)) : (⟨S128x128, .f32⟩ : BufTy).Contents (Elt F) := shapeCast _ (extractStridedSlice S1x1x128x128 ![2, 1, 0, 0] w slices_S3x2x128x128_S1x1x128x128_2_1_0_0) shapeCasts_S1x1x128x128_S128x128

/-- Row [l, r] of a 3 × 2 stack of 128-entry bias rows. -/
def row00 (b : (⟨S3x2x128, .f32⟩ : BufTy).Contents (Elt F)) : (⟨S128, .f32⟩ : BufTy).Contents (Elt F) := shapeCast _ (extractStridedSlice S1x1x128 ![0, 0, 0] b slices_S3x2x128_S1x1x128_0_0_0) shapeCasts_S1x1x128_S128
def row01 (b : (⟨S3x2x128, .f32⟩ : BufTy).Contents (Elt F)) : (⟨S128, .f32⟩ : BufTy).Contents (Elt F) := shapeCast _ (extractStridedSlice S1x1x128 ![0, 1, 0] b slices_S3x2x128_S1x1x128_0_1_0) shapeCasts_S1x1x128_S128
def row10 (b : (⟨S3x2x128, .f32⟩ : BufTy).Contents (Elt F)) : (⟨S128, .f32⟩ : BufTy).Contents (Elt F) := shapeCast _ (extractStridedSlice S1x1x128 ![1, 0, 0] b slices_S3x2x128_S1x1x128_1_0_0) shapeCasts_S1x1x128_S128
def row11 (b : (⟨S3x2x128, .f32⟩ : BufTy).Contents (Elt F)) : (⟨S128, .f32⟩ : BufTy).Contents (Elt F) := shapeCast _ (extractStridedSlice S1x1x128 ![1, 1, 0] b slices_S3x2x128_S1x1x128_1_1_0) shapeCasts_S1x1x128_S128
def row20 (b : (⟨S3x2x128, .f32⟩ : BufTy).Contents (Elt F)) : (⟨S128, .f32⟩ : BufTy).Contents (Elt F) := shapeCast _ (extractStridedSlice S1x1x128 ![2, 0, 0] b slices_S3x2x128_S1x1x128_2_0_0) shapeCasts_S1x1x128_S128
def row21 (b : (⟨S3x2x128, .f32⟩ : BufTy).Contents (Elt F)) : (⟨S128, .f32⟩ : BufTy).Contents (Elt F) := shapeCast _ (extractStridedSlice S1x1x128 ![2, 1, 0] b slices_S3x2x128_S1x1x128_2_1_0) shapeCasts_S1x1x128_S128

/-! ## The three layers -/

section Layers
variable (xu : (⟨S50000x128, .f32⟩ : BufTy).Contents (Elt F)) (xi : (⟨S100000x128, .f32⟩ : BufTy).Contents (Elt F))
  (wself wneigh : (⟨S3x2x128x128, .f32⟩ : BufTy).Contents (Elt F)) (bias : (⟨S3x2x128, .f32⟩ : BufTy).Contents (Elt F))
  (sui dui siu diu : (⟨S800000, .i32⟩ : BufTy).Contents (Elt F))

/-- Item features after layer 0. -/
def item1 : (⟨S100000x128, .f32⟩ : BufTy).Contents (Elt F) :=
  reluI (layerI xi (meanI xu sui dui) (mat00 wself) (mat00 wneigh) (row00 bias))
/-- User features after layer 0. -/
def user1 : (⟨S50000x128, .f32⟩ : BufTy).Contents (Elt F) :=
  reluU (layerU xu (meanU xi siu diu) (mat01 wself) (mat01 wneigh) (row01 bias))
/-- Item features after layer 1. -/
def item2 : (⟨S100000x128, .f32⟩ : BufTy).Contents (Elt F) :=
  reluI (layerI (item1 xu xi wself wneigh bias sui dui) (meanI (user1 xu xi wself wneigh bias siu diu) sui dui) (mat10 wself) (mat10 wneigh) (row10 bias))
/-- User features after layer 1. -/
def user2 : (⟨S50000x128, .f32⟩ : BufTy).Contents (Elt F) :=
  reluU (layerU (user1 xu xi wself wneigh bias siu diu) (meanU (item1 xu xi wself wneigh bias sui dui) siu diu) (mat11 wself) (mat11 wneigh) (row11 bias))
/-- Item features after layer 2, the last: no activation. -/
def item3 : (⟨S100000x128, .f32⟩ : BufTy).Contents (Elt F) :=
  layerI (item2 xu xi wself wneigh bias sui dui siu diu) (meanI (user2 xu xi wself wneigh bias sui dui siu diu) sui dui) (mat20 wself) (mat20 wneigh) (row20 bias)
/-- User features after layer 2, the last: no activation. -/
def user3 : (⟨S50000x128, .f32⟩ : BufTy).Contents (Elt F) :=
  layerU (user2 xu xi wself wneigh bias sui dui siu diu) (meanU (item2 xu xi wself wneigh bias sui dui siu diu) siu diu) (mat21 wself) (mat21 wneigh) (row21 bias)

end Layers

end Cert.Sage

end
-- ==== Proof.RefSpec.lean ====
/-
  The reference computes the specification: its two results, as composed terms of the launch contents of its
  nine arguments, are the last layer's user rows and item rows. Both are the same tree of operations; only the
  names given to the subtrees differ.
-/
import proofs.«165764_j51711406244224_1_alg».proof.Proof.Gen.ReferenceIdeal.Run
import proofs.«165764_j51711406244224_1_alg».proof.Proof.Spec

set_option maxRecDepth 16384

noncomputable section

namespace Cert.ReferenceIdeal.RefValue

open Cert.ReferenceIdeal Cert.ReferenceIdeal.Value Idealize.ShloMosaic Idealize.ShloMosaic.TcCoe Idealize.SL.Sem

variable {F : FTy → Type} [FloatOps F]

/-- The first result is the user rows after the last layer. -/
theorem users_eq (m : (ℓ : Loc nD τ sig) → Buf (Elt F) ℓ) (c : Dev nD) :
    res_out0 (F := F) m c
      = Cert.Sage.user3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show res_main_v194 m c = _
  unfold res_main_v194
  simp only [Cert.Sage.user3, Cert.Sage.user2, Cert.Sage.item2, Cert.Sage.user1, Cert.Sage.item1, Cert.Sage.layerU, Cert.Sage.layerI,
    Cert.Sage.reluU, Cert.Sage.reluI, Cert.Sage.meanU, Cert.Sage.meanI, Cert.Sage.mat00, Cert.Sage.mat01, Cert.Sage.mat10, Cert.Sage.mat11,
    Cert.Sage.mat20, Cert.Sage.mat21, Cert.Sage.row00, Cert.Sage.row01, Cert.Sage.row10, Cert.Sage.row11, Cert.Sage.row20, Cert.Sage.row21]

/-- The second result is the item rows after the last layer. -/
theorem items_eq (m : (ℓ : Loc nD τ sig) → Buf (Elt F) ℓ) (c : Dev nD) :
    res_out1 (F := F) m c
      = Cert.Sage.item3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show res_main_v195 m c = _
  unfold res_main_v195
  simp only [Cert.Sage.item3, Cert.Sage.user2, Cert.Sage.item2, Cert.Sage.user1, Cert.Sage.item1, Cert.Sage.layerU, Cert.Sage.layerI,
    Cert.Sage.reluU, Cert.Sage.reluI, Cert.Sage.meanU, Cert.Sage.meanI, Cert.Sage.mat00, Cert.Sage.mat01, Cert.Sage.mat10, Cert.Sage.mat11,
    Cert.Sage.mat20, Cert.Sage.mat21, Cert.Sage.row00, Cert.Sage.row01, Cert.Sage.row10, Cert.Sage.row11, Cert.Sage.row20, Cert.Sage.row21]

end Cert.ReferenceIdeal.RefValue

end
-- ==== Proof.LayerMath.lean ====
/-
  One layer, entry by entry.

  Entry (r, q) of ((h · Ws + mean · Wn) + bias) + h is
      ((Σ_k h(r,k) · Ws(k,q)) + (Σ_k mean(r,k) · Wn(k,q)) + bias(q)) + h(r,q),
  a function of row r of h, row r of mean, the two matrices and the bias row alone. The same holds of a
  block of 5000 consecutive rows computed by itself: the product of the block with a matrix, accumulated
  into zero, has at (p, q) the sum over k of block(p,k) · matrix(k,q); changes of float format are the
  identity on extended reals; the bias re-laid as a 1 × 128 row and repeated down the rows has bias(q) at
  (p, q). So a block of rows of the layer is the layer of that block of rows.
-/
import proofs.«165764_j51711406244224_1_alg».proof.Proof.Spec
import proofs.«165764_j51711406244224_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx

/-- The block product's dimensions: 5000 × 128 times 128 × 128. -/
abbrev dK := Cert.KernelIdeal.dot_S5000x128_S128x128_S5000x128_1_0_0_1_n_n
/-- The whole item product's dimensions: 100000 × 128 times 128 × 128. -/
abbrev dI := Cert.ReferenceIdeal.dot_S100000x128_S128x128_S100000x128_1_0_0_1_n_n
/-- The whole user product's dimensions: 50000 × 128 times 128 × 128. -/
abbrev dU := Cert.ReferenceIdeal.dot_S50000x128_S128x128_S50000x128_1_0_0_1_n_n

/-! ## The three products as sums over k < 128

Each record contracts axis 1 of the left operand with axis 0 of the right and has no batch axis, so at output
index (a, q) and contraction index k the left operand is read at (a, k) and the right at (k, q). -/

theorem dK_lhs0 (i : Cert.KernelIdeal.S5000x128.Idx) (q : dK.contr.Idx) : (dK.lhsIdx i q 0).val = (i 0).val := by
  unfold DotDims.lhsIdx
  rw [dif_neg (show ¬(0 : Fin Cert.KernelIdeal.S5000x128.rank) ∈ dK.lhsBatch by decide),
    dif_pos (show (0 : Fin Cert.KernelIdeal.S5000x128.rank) ∈ dK.lhsNonContracting by decide)]
  rfl
theorem dK_rhs1 (i : Cert.KernelIdeal.S5000x128.Idx) (q : dK.contr.Idx) : (dK.rhsIdx i q 1).val = (i 1).val := by
  unfold DotDims.rhsIdx
  rw [dif_neg (show ¬(1 : Fin Cert.KernelIdeal.S128x128.rank) ∈ dK.rhsBatch by decide),
    dif_pos (show (1 : Fin Cert.KernelIdeal.S128x128.rank) ∈ dK.rhsNonContracting by decide)]
  rfl
theorem dK_sum {φ₁ φ₂ : FTy} (l : FVec Ideal Cert.KernelIdeal.S5000x128 φ₁) (r : FVec Ideal Cert.KernelIdeal.S128x128 φ₂)
    (a : Fin 5000) (q : Fin 128) :
    ∑ k : dK.contr.Idx, l (dK.lhsIdx (ix2 a q) k) * r (dK.rhsIdx (ix2 a q) k) = ∑ k : Fin 128, l (ix2 a k) * r (ix2 k q) := by
  rw [← Equiv.sum_comp (ValueIdx.contrEquiv1 dK 128 rfl rfl).symm]
  refine Finset.sum_congr rfl fun k _ => ?_
  have hk := ValueIdx.contrEquiv1_symm_val dK 128 rfl rfl k
  have el : dK.lhsIdx (ix2 a q) ((ValueIdx.contrEquiv1 dK 128 rfl rfl).symm k) = ix2 a k := funext fun x => Fin.ext (by
    match x with
    | ⟨0, _⟩ => exact dK_lhs0 _ _
    | ⟨1, _⟩ => exact (dK.lhsIdx_val_of_single rfl _ _).trans hk)
  have er : dK.rhsIdx (ix2 a q) ((ValueIdx.contrEquiv1 dK 128 rfl rfl).symm k) = ix2 k q := funext fun x => Fin.ext (by
    match x with
    | ⟨0, _⟩ => exact (dK.rhsIdx_val_of_single rfl _ _).trans hk
    | ⟨1, _⟩ => exact dK_rhs1 _ _)
  rw [el, er]

theorem dI_lhs0 (i : Cert.ReferenceIdeal.S100000x128.Idx) (q : dI.contr.Idx) : (dI.lhsIdx i q 0).val = (i 0).val := by
  unfold DotDims.lhsIdx
  rw [dif_neg (show ¬(0 : Fin Cert.ReferenceIdeal.S100000x128.rank) ∈ dI.lhsBatch by decide),
    dif_pos (show (0 : Fin Cert.ReferenceIdeal.S100000x128.rank) ∈ dI.lhsNonContracting by decide)]
  rfl
theorem dI_rhs1 (i : Cert.ReferenceIdeal.S100000x128.Idx) (q : dI.contr.Idx) : (dI.rhsIdx i q 1).val = (i 1).val := by
  unfold DotDims.rhsIdx
  rw [dif_neg (show ¬(1 : Fin Cert.ReferenceIdeal.S128x128.rank) ∈ dI.rhsBatch by decide),
    dif_pos (show (1 : Fin Cert.ReferenceIdeal.S128x128.rank) ∈ dI.rhsNonContracting by decide)]
  rfl
theorem dI_sum {φ₁ φ₂ : FTy} (l : FVec Ideal Cert.ReferenceIdeal.S100000x128 φ₁) (r : FVec Ideal Cert.ReferenceIdeal.S128x128 φ₂)
    (a : Fin 100000) (q : Fin 128) :
    ∑ k : dI.contr.Idx, l (dI.lhsIdx (ix2 a q) k) * r (dI.rhsIdx (ix2 a q) k) = ∑ k : Fin 128, l (ix2 a k) * r (ix2 k q) := by
  rw [← Equiv.sum_comp (ValueIdx.contrEquiv1 dI 128 rfl rfl).symm]
  refine Finset.sum_congr rfl fun k _ => ?_
  have hk := ValueIdx.contrEquiv1_symm_val dI 128 rfl rfl k
  have el : dI.lhsIdx (ix2 a q) ((ValueIdx.contrEquiv1 dI 128 rfl rfl).symm k) = ix2 a k := funext fun x => Fin.ext (by
    match x with
    | ⟨0, _⟩ => exact dI_lhs0 _ _
    | ⟨1, _⟩ => exact (dI.lhsIdx_val_of_single rfl _ _).trans hk)
  have er : dI.rhsIdx (ix2 a q) ((ValueIdx.contrEquiv1 dI 128 rfl rfl).symm k) = ix2 k q := funext fun x => Fin.ext (by
    match x with
    | ⟨0, _⟩ => exact (dI.rhsIdx_val_of_single rfl _ _).trans hk
    | ⟨1, _⟩ => exact dI_rhs1 _ _)
  rw [el, er]

theorem dU_lhs0 (i : Cert.ReferenceIdeal.S50000x128.Idx) (q : dU.contr.Idx) : (dU.lhsIdx i q 0).val = (i 0).val := by
  unfold DotDims.lhsIdx
  rw [dif_neg (show ¬(0 : Fin Cert.ReferenceIdeal.S50000x128.rank) ∈ dU.lhsBatch by decide),
    dif_pos (show (0 : Fin Cert.ReferenceIdeal.S50000x128.rank) ∈ dU.lhsNonContracting by decide)]
  rfl
theorem dU_rhs1 (i : Cert.ReferenceIdeal.S50000x128.Idx) (q : dU.contr.Idx) : (dU.rhsIdx i q 1).val = (i 1).val := by
  unfold DotDims.rhsIdx
  rw [dif_neg (show ¬(1 : Fin Cert.ReferenceIdeal.S128x128.rank) ∈ dU.rhsBatch by decide),
    dif_pos (show (1 : Fin Cert.ReferenceIdeal.S128x128.rank) ∈ dU.rhsNonContracting by decide)]
  rfl
theorem dU_sum {φ₁ φ₂ : FTy} (l : FVec Ideal Cert.ReferenceIdeal.S50000x128 φ₁) (r : FVec Ideal Cert.ReferenceIdeal.S128x128 φ₂)
    (a : Fin 50000) (q : Fin 128) :
    ∑ k : dU.contr.Idx, l (dU.lhsIdx (ix2 a q) k) * r (dU.rhsIdx (ix2 a q) k) = ∑ k : Fin 128, l (ix2 a k) * r (ix2 k q) := by
  rw [← Equiv.sum_comp (ValueIdx.contrEquiv1 dU 128 rfl rfl).symm]
  refine Finset.sum_congr rfl fun k _ => ?_
  have hk := ValueIdx.contrEquiv1_symm_val dU 128 rfl rfl k
  have el : dU.lhsIdx (ix2 a q) ((ValueIdx.contrEquiv1 dU 128 rfl rfl).symm k) = ix2 a k := funext fun x => Fin.ext (by
    match x with
    | ⟨0, _⟩ => exact dU_lhs0 _ _
    | ⟨1, _⟩ => exact (dU.lhsIdx_val_of_single rfl _ _).trans hk)
  have er : dU.rhsIdx (ix2 a q) ((ValueIdx.contrEquiv1 dU 128 rfl rfl).symm k) = ix2 k q := funext fun x => Fin.ext (by
    match x with
    | ⟨0, _⟩ => exact (dU.rhsIdx_val_of_single rfl _ _).trans hk
    | ⟨1, _⟩ => exact dU_rhs1 _ _)
  rw [el, er]

/-- A 5000-row block times a matrix, accumulated into zero, at (p, q). -/
theorem blockProduct_apply {φ₁ φ₂ : FTy} (l : FVec Ideal Cert.KernelIdeal.S5000x128 φ₁) (r : FVec Ideal Cert.KernelIdeal.S128x128 φ₂)
    (p : Fin 5000) (q : Fin 128) :
    matmul dK none l r (constant (F := Ideal) Cert.KernelIdeal.S5000x128 .f32 0x00000000#32) (ix2 p q)
      = ∑ k : Fin 128, l (ix2 p k) * r (ix2 k q) :=
  (Ideal.matmul_constant_zero_apply dK none l r (ix2 p q)).trans (dK_sum l r p q)

/-- The item rows times a matrix at (a, q). -/
theorem itemProduct_apply {φ₁ φ₂ : FTy} (l : FVec Ideal Cert.ReferenceIdeal.S100000x128 φ₁) (r : FVec Ideal Cert.ReferenceIdeal.S128x128 φ₂)
    (a : Fin 100000) (q : Fin 128) :
    Host.dotGeneral (F := Ideal) dI none l r (ix2 a q) = ∑ k : Fin 128, l (ix2 a k) * r (ix2 k q) :=
  (Ideal.dotGeneral_apply dI none .single l r (ix2 a q)).trans (dI_sum l r a q)

/-- The user rows times a matrix at (a, q). -/
theorem userProduct_apply {φ₁ φ₂ : FTy} (l : FVec Ideal Cert.ReferenceIdeal.S50000x128 φ₁) (r : FVec Ideal Cert.ReferenceIdeal.S128x128 φ₂)
    (a : Fin 50000) (q : Fin 128) :
    Host.dotGeneral (F := Ideal) dU none l r (ix2 a q) = ∑ k : Fin 128, l (ix2 a k) * r (ix2 k q) :=
  (Ideal.dotGeneral_apply dU none .single l r (ix2 a q)).trans (dU_sum l r a q)

/-! ## The bias row repeated down the rows -/

/-- In a block: the bias re-laid as a 1 × 128 row, repeated over 5000 rows, has bias(q) at (p, q). -/
theorem blockBias_apply {α : Type} (b : Cert.KernelIdeal.S128.Idx → α) (h1 : Cert.KernelIdeal.S128.ShapeCasts Cert.KernelIdeal.S1x128)
    (h2 : Cert.KernelIdeal.S1x128.Broadcasts Cert.KernelIdeal.S5000x128) (p : Fin 5000) (q : Fin 128) :
    broadcastTo Cert.KernelIdeal.S5000x128 (shapeCast Cert.KernelIdeal.S1x128 b h1) h2 (ix2 p q) = b (ix1 q) :=
  (broadcastTo_1b_ab_apply _ h2 p q).trans (shapeCast_a_1a_apply b h1 0 q)

/-- The bias as the one row of a 1 × 128 array has bias(q) at (0, q). -/
theorem biasRow_apply {α : Type} (b : Cert.ReferenceIdeal.S128.Idx → α)
    (h0 : Cert.ReferenceIdeal.S128.BroadcastsInDim Cert.ReferenceIdeal.S1x128 ![1]) (q : Fin 128) :
    broadcastInDim Cert.ReferenceIdeal.S1x128 ![1] h0 b (ix2 (0 : Fin 1) q) = b (ix1 q) :=
  broadcastInDim_apply ![1] h0 b (ix2 (0 : Fin 1) q) (ix1 q) (fun x => match x with
    | ⟨0, _⟩ => by show q.val = if (128 : Nat) = 1 then 0 else q.val; rw [if_neg (by decide)])

/-- Over the item rows: the bias row repeated down 100000 rows has bias(q) at (a, q). -/
theorem itemBias_apply {α : Type} (b : Cert.ReferenceIdeal.S128.Idx → α)
    (h0 : Cert.ReferenceIdeal.S128.BroadcastsInDim Cert.ReferenceIdeal.S1x128 ![1])
    (h1 : Cert.ReferenceIdeal.S1x128.BroadcastsInDim Cert.ReferenceIdeal.S100000x128 ![0, 1]) (a : Fin 100000) (q : Fin 128) :
    broadcastInDim Cert.ReferenceIdeal.S100000x128 ![0, 1] h1
      (broadcastInDim Cert.ReferenceIdeal.S1x128 ![1] h0 b) (ix2 a q) = b (ix1 q) :=
  (broadcastInDim_apply ![0, 1] h1 _ (ix2 a q) (ix2 (0 : Fin 1) q) (fun x => match x with
    | ⟨0, _⟩ => by show 0 = if (1 : Nat) = 1 then 0 else a.val; rw [if_pos rfl]
    | ⟨1, _⟩ => by show q.val = if (128 : Nat) = 1 then 0 else q.val; rw [if_neg (by decide)])).trans (biasRow_apply b h0 q)

/-- Over the user rows: the bias row repeated down 50000 rows has bias(q) at (a, q). -/
theorem userBias_apply {α : Type} (b : Cert.ReferenceIdeal.S128.Idx → α)
    (h0 : Cert.ReferenceIdeal.S128.BroadcastsInDim Cert.ReferenceIdeal.S1x128 ![1])
    (h1 : Cert.ReferenceIdeal.S1x128.BroadcastsInDim Cert.ReferenceIdeal.S50000x128 ![0, 1]) (a : Fin 50000) (q : Fin 128) :
    broadcastInDim Cert.ReferenceIdeal.S50000x128 ![0, 1] h1
      (broadcastInDim Cert.ReferenceIdeal.S1x128 ![1] h0 b) (ix2 a q) = b (ix1 q) :=
  (broadcastInDim_apply ![0, 1] h1 _ (ix2 a q) (ix2 (0 : Fin 1) q) (fun x => match x with
    | ⟨0, _⟩ => by show 0 = if (1 : Nat) = 1 then 0 else a.val; rw [if_pos rfl]
    | ⟨1, _⟩ => by show q.val = if (128 : Nat) = 1 then 0 else q.val; rw [if_neg (by decide)])).trans (biasRow_apply b h0 q)

/-! ## One entry of a layer -/

/-- Column q of one output row from that row of the features (`hrow`), that row of the neighbour mean
    (`mrow`), the two matrices, the bias row, and the feature entry added back (`res`). -/
def entry (hrow mrow : Fin 128 → EReal) (ws wn : (⟨2, ![128, 128]⟩ : Shape).Idx → EReal) (b : (⟨1, ![128]⟩ : Shape).Idx → EReal)
    (res : EReal) (q : Fin 128) : EReal :=
  ((∑ k : Fin 128, hrow k * ws (ix2 k q)) + (∑ k : Fin 128, mrow k * wn (ix2 k q)) + b (ix1 q)) + res

theorem layerI_apply (h mean : FVec Ideal Cert.ReferenceIdeal.S100000x128 .f32) (ws wn : FVec Ideal Cert.ReferenceIdeal.S128x128 .f32)
    (b : FVec Ideal Cert.ReferenceIdeal.S128 .f32) (a : Fin 100000) (q : Fin 128) :
    layerI (F := Ideal) h mean ws wn b (ix2 a q)
      = entry (fun k => h (ix2 a k)) (fun k => mean (ix2 a k)) ws wn b (h (ix2 a q)) q := by
  unfold layerI
  simp only [addf_apply, itemProduct_apply]
  unfold entry
  rw [itemBias_apply]

theorem layerU_apply (h mean : FVec Ideal Cert.ReferenceIdeal.S50000x128 .f32) (ws wn : FVec Ideal Cert.ReferenceIdeal.S128x128 .f32)
    (b : FVec Ideal Cert.ReferenceIdeal.S128 .f32) (a : Fin 50000) (q : Fin 128) :
    layerU (F := Ideal) h mean ws wn b (ix2 a q)
      = entry (fun k => h (ix2 a k)) (fun k => mean (ix2 a k)) ws wn b (h (ix2 a q)) q := by
  unfold layerU
  simp only [addf_apply, userProduct_apply]
  unfold entry
  rw [userBias_apply]

theorem reluI_apply (x : FVec Ideal Cert.ReferenceIdeal.S100000x128 .f32) (i : Cert.ReferenceIdeal.S100000x128.Idx) :
    reluI (F := Ideal) x i = max (x i) (Ideal.ofBits .f32 0x00000000#32) := rfl

theorem reluU_apply (x : FVec Ideal Cert.ReferenceIdeal.S50000x128 .f32) (i : Cert.ReferenceIdeal.S50000x128.Idx) :
    reluU (F := Ideal) x i = max (x i) (Ideal.ofBits .f32 0x00000000#32) := rfl

/-! ## The same entry, computed inside a block of 5000 rows

The six launches run three bodies: the first two layers end in max(·, 0), the last does not, and the bodies
differ otherwise only in where an identity re-laying of the feature block is written. -/

theorem pay0_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k0_pay1 (F := Ideal) x0 x1 x2 x3 x4 (ix2 p q)
      = max (entry (fun k => x0 (ix2 p k)) (fun k => x1 (ix2 p k)) x2 x3 x4 (x0 (ix2 p q)) q) (Ideal.ofBits .f32 0x00000000#32) := by
  unfold Cert.KernelIdeal.Gen.k0_pay1
  simp only [shapeCast_self]
  simp only [maximumf_apply, addf_apply, broadcast_apply, blockProduct_apply, blockBias_apply, truncf_apply]
  rfl

theorem pay1_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k1_pay1 (F := Ideal) x0 x1 x2 x3 x4 (ix2 p q)
      = max (entry (fun k => x0 (ix2 p k)) (fun k => x1 (ix2 p k)) x2 x3 x4 (x0 (ix2 p q)) q) (Ideal.ofBits .f32 0x00000000#32) := by
  unfold Cert.KernelIdeal.Gen.k1_pay1
  simp only [shapeCast_self]
  simp only [maximumf_apply, addf_apply, broadcast_apply, blockProduct_apply, blockBias_apply, truncf_apply]
  rfl

theorem pay2_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k2_pay1 (F := Ideal) x0 x1 x2 x3 x4 (ix2 p q)
      = max (entry (fun k => x0 (ix2 p k)) (fun k => x1 (ix2 p k)) x2 x3 x4 (x0 (ix2 p q)) q) (Ideal.ofBits .f32 0x00000000#32) := by
  unfold Cert.KernelIdeal.Gen.k2_pay1
  simp only [shapeCast_self]
  simp only [maximumf_apply, addf_apply, broadcast_apply, blockProduct_apply, blockBias_apply, truncf_apply]
  rfl

theorem pay3_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k3_pay1 (F := Ideal) x0 x1 x2 x3 x4 (ix2 p q)
      = max (entry (fun k => x0 (ix2 p k)) (fun k => x1 (ix2 p k)) x2 x3 x4 (x0 (ix2 p q)) q) (Ideal.ofBits .f32 0x00000000#32) := by
  unfold Cert.KernelIdeal.Gen.k3_pay1
  simp only [shapeCast_self]
  simp only [maximumf_apply, addf_apply, broadcast_apply, blockProduct_apply, blockBias_apply, truncf_apply]
  rfl

theorem pay4_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k4_pay1 (F := Ideal) x0 x1 x2 x3 x4 (ix2 p q)
      = entry (fun k => x0 (ix2 p k)) (fun k => x1 (ix2 p k)) x2 x3 x4 (x0 (ix2 p q)) q := by
  unfold Cert.KernelIdeal.Gen.k4_pay1
  simp only [shapeCast_self]
  simp only [addf_apply, blockProduct_apply, blockBias_apply, truncf_apply]
  rfl

theorem pay5_apply (x0 x1 : Vec Ideal Cert.KernelIdeal.S5000x128 .f32) (x2 x3 : Vec Ideal Cert.KernelIdeal.S128x128 .f32)
    (x4 : Vec Ideal Cert.KernelIdeal.S128 .f32) (p : Fin 5000) (q : Fin 128) :
    Cert.KernelIdeal.Gen.k5_pay1 (F := Ideal) x0 x1 x2 x3 x4 (ix2 p q)
      = entry (fun k => x0 (ix2 p k)) (fun k => x1 (ix2 p k)) x2 x3 x4 (x0 (ix2 p q)) q := by
  unfold Cert.KernelIdeal.Gen.k5_pay1
  simp only [shapeCast_self]
  simp only [addf_apply, blockProduct_apply, blockBias_apply, truncf_apply]
  rfl

end Cert.Sage

end
-- ==== Proof.Region0.lean ====
/-
  Launch 0 (item rows, layer 0). The launch walks the 100000 item rows in 20 blocks of 5000: at point t it
  reads rows 5000·t … 5000·t + 4999 of the item features and of the item neighbour mean, the whole of the
  two 128 × 128 matrices and of the bias row, and writes the same rows of its result. What it writes at a row
  is max(·, 0) of the layer's entry for that row, which reads only that row of the two inputs; the 20 blocks
  tile the rows. So after the launch the result array is max(layer, 0) of the arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Over the 20 points: the two row-blocked inputs move with the output, block column 0; the matrices and the
    bias sit at block 0; the output's block row is below 20. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 19 :=
  (by decide +kernel : ∀ t : Fin grid0.N, _)

/-- Every block row below 20 is some point's. -/
theorem onto0 : ∀ q0 : Fin 20, ∃ t : Fin cfg0.N, win0_5.index t = ![q0.val, 0] :=
  (by decide +kernel : ∀ q0 : Fin 20, ∃ t : Fin grid0.N, win0_5.index t = ![q0.val, 0])

/-- Row p of the block of the item features at point t is row 5000·(block row) + p of the array. -/
theorem feat0 (c : Dev nD) (t : Fin cfg0.N) (p : Fin 5000) (k : Fin 128) (r : Fin 100000)
    (hr : r.val = win0_5.index t (0 : Fin 2) * 5000 + p.val) :
    iblk0 V c 0 t (ix2 p k) = V c main_arg1 (ix2 r k) := by
  obtain ⟨e00, e01, -⟩ := idx0 t
  show V c main_arg1 (((cfg0.win 0).blk t).view.emb (ix2 p k)) = V c main_arg1 (ix2 r k)
  refine congrArg (V c main_arg1) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The same for the neighbour mean. -/
theorem mean0 (c : Dev nD) (t : Fin cfg0.N) (p : Fin 5000) (k : Fin 128) (r : Fin 100000)
    (hr : r.val = win0_5.index t (0 : Fin 2) * 5000 + p.val) :
    iblk0 V c 1 t (ix2 p k) = V c main_v18 (ix2 r k) := by
  obtain ⟨-, -, e10, e11, -⟩ := idx0 t
  show V c main_v18 (((cfg0.win 1).blk t).view.emb (ix2 p k)) = V c main_v18 (ix2 r k)
  refine congrArg (V c main_v18) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The one block of each matrix and of the bias row is the whole array. -/
theorem wself0 (c : Dev nD) (t : Fin cfg0.N) : iblk0 V c 2 t = V c main_v39 := by
  obtain ⟨-, -, -, -, e20, e21, -⟩ := idx0 t
  funext j
  show V c main_v39 (((cfg0.win 2).blk t).view.emb j) = V c main_v39 j
  refine congrArg (V c main_v39) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem wneigh0 (c : Dev nD) (t : Fin cfg0.N) : iblk0 V c 3 t = V c main_v41 := by
  obtain ⟨-, -, -, -, -, -, e30, e31, -⟩ := idx0 t
  funext j
  show V c main_v41 (((cfg0.win 3).blk t).view.emb j) = V c main_v41 j
  refine congrArg (V c main_v41) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega
theorem bias0 (c : Dev nD) (t : Fin cfg0.N) : iblk0 V c 4 t = V c main_v43 := by
  obtain ⟨-, -, -, -, -, -, -, -, e40, -⟩ := idx0 t
  funext j
  show V c main_v43 (((cfg0.win 4).blk t).view.emb j) = V c main_v43 j
  refine congrArg (V c main_v43) (funext fun a => Fin.ext ?_)
  match a with
  | ⟨0, _⟩ => show win0_4.index t (0 : Fin 1) * 128 + 1 * (j 0).val = (j 0).val; omega

/-- What the launch leaves in its result, as one function of the arrays it found. -/
abbrev G0 (c : Dev nD) : Cert.ReferenceIdeal.S100000x128.Idx → EReal :=
  Cert.Sage.reluI (F := Ideal) (Cert.Sage.layerI (F := Ideal) (V c main_arg1) (V c main_v18) (V c main_v39) (V c main_v41) (V c main_v43))

/-- What point t writes back is block t of that function. -/
theorem flushed0 (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨-, -, -, -, -, -, -, -, -, e51, e5b⟩ := idx0 t
  funext j
  obtain ⟨p, q, rfl⟩ : ∃ (p : Fin 5000) (q : Fin 128), j = ix2 p q := ⟨j 0, j 1, eq_ix2 j⟩
  refine (Cert.Sage.pay0_apply (iblk0 V c 0 t) (iblk0 V c 1 t) (iblk0 V c 2 t) (iblk0 V c 3 t) (iblk0 V c 4 t) p q).trans ?_
  have hp : p.val < 5000 := p.isLt
  let r : Fin 100000 := ⟨win0_5.index t (0 : Fin 2) * 5000 + p.val, by omega⟩
  have hemb : ((cfg0.win 5).blk t).view.emb (ix2 p q) = ix2 r q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  show _ = G0 V c (((cfg0.win 5).blk t).view.emb (ix2 p q))
  rw [hemb]
  unfold G0
  rw [Cert.Sage.reluI_apply, Cert.Sage.layerI_apply]
  simp only [feat0 V c t p _ r rfl, mean0 V c t p _ r rfl, wself0 V c t, wneigh0 V c t, bias0 V c t]

/-- An index is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v44).slice (win0_5.rect t)).set ↔ _
  rw [View.set_slice_whole, Rect.mem_set_unit]
  exact Iff.rfl

/-- The 20 blocks tile the rows: row r is in block r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the launch its result array is max(layer, 0) of the arrays it found. -/
theorem final0 (c : Dev nD) : (dat0 (F := Ideal) V c).arrAt 5 cfg0.N = G0 V c :=
  (dat0 (F := Ideal) V c).arrAt_eq_of_cover 5 (G0 V c) (fun t _ => flushed0 V c t) (cover0)

end Cert.KernelIdeal.Layers

end
-- ==== Proof.Region1.lean ====
/-
  Launch 1 (user rows, layer 0). The launch walks the 50000 user rows in 10 blocks of 5000: at point t it
  reads rows 5000·t … 5000·t + 4999 of the user features and of the user neighbour mean, the whole of the
  two 128 × 128 matrices and of the bias row, and writes the same rows of its result: max(·, 0) of the
  layer's entry for that row, which reads only that row of the two inputs. The 10 blocks tile the rows, so
  after the launch the result array is max(layer, 0) of the arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a; rfl

/-- Over the 10 points: the two row-blocked inputs move with the output, block column 0; the matrices and the
    bias sit at block 0; the output's block row is below 10. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every block row below 10 is some point's. -/
theorem onto1 : ∀ q0 : Fin 10, ∃ t : Fin cfg1.N, win1_5.index t = ![q0.val, 0] :=
  (by decide +kernel : ∀ q0 : Fin 10, ∃ t : Fin grid1.N, win1_5.index t = ![q0.val, 0])

/-- Row p of the block of the user features at point t is row 5000·(block row) + p of the array. -/
theorem feat1 (c : Dev nD) (t : Fin cfg1.N) (p : Fin 5000) (k : Fin 128) (r : Fin 50000)
    (hr : r.val = win1_5.index t (0 : Fin 2) * 5000 + p.val) :
    iblk1 V c 0 t (ix2 p k) = V c main_arg0 (ix2 r k) := by
  obtain ⟨e00, e01, -⟩ := idx1 t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the neighbour mean. -/
theorem mean1 (c : Dev nD) (t : Fin cfg1.N) (p : Fin 5000) (k : Fin 128) (r : Fin 50000)
    (hr : r.val = win1_5.index t (0 : Fin 2) * 5000 + p.val) :
    iblk1 V c 1 t (ix2 p k) = V c main_v37 (ix2 r k) := by
  obtain ⟨-, -, e10, e11, -⟩ := idx1 t
  show V c main_v37 (((cfg1.win 1).blk t).view.emb (ix2 p k)) = V c main_v37 (ix2 r k)
  refine congrArg (V c main_v37) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The one block of each matrix and of the bias row is the whole array. -/
theorem wself1 (c : Dev nD) (t : Fin cfg1.N) : iblk1 V c 2 t = V c main_v46 := by
  obtain ⟨-, -, -, -, e20, e21, -⟩ := idx1 t
  funext j
  show V c main_v46 (((cfg1.win 2).blk t).view.emb j) = V c main_v46 j
  refine congrArg (V c main_v46) (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega
theorem wneigh1 (c : Dev nD) (t : Fin cfg1.N) : iblk1 V c 3 t = V c main_v48 := by
  obtain ⟨-, -, -, -, -, -, e30, e31, -⟩ := idx1 t
  funext j
  show V c main_v48 (((cfg1.win 3).blk t).view.emb j) = V c main_v48 j
  refine congrArg (V c main_v48) (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega
theorem bias1 (c : Dev nD) (t : Fin cfg1.N) : iblk1 V c 4 t = V c main_v50 := by
  obtain ⟨-, -, -, -, -, -, -, -, e40, -⟩ := idx1 t
  funext j
  show V c main_v50 (((cfg1.win 4).blk t).view.emb j) = V c main_v50 j
  refine congrArg (V c main_v50) (funext fun a => Fin.ext ?_)
  match a with
  | ⟨0, _⟩ => show win1_4.index t (0 : Fin 1) * 128 + 1 * (j 0).val = (j 0).val; omega

/-- What the launch leaves in its result, as one function of the arrays it found. -/
abbrev G1 (c : Dev nD) : Cert.ReferenceIdeal.S50000x128.Idx → EReal :=
  Cert.Sage.reluU (F := Ideal) (Cert.Sage.layerU (F := Ideal) (V c main_arg0) (V c main_v37) (V c main_v46) (V c main_v48) (V c main_v50))

/-- What point t writes back is block t of that function. -/
theorem flushed1 (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero zero2_1]
  simp only [View.ld_unit_zero (S := S5000x128) zero2_1, View.ld_unit_zero (S := S128x128) zero2_1, View.ld_unit_zero (S := S128) zero1_1]
  obtain ⟨-, -, -, -, -, -, -, -, -, e51, e5b⟩ := idx1 t
  funext j
  obtain ⟨p, q, rfl⟩ : ∃ (p : Fin 5000) (q : Fin 128), j = ix2 p q := ⟨j 0, j 1, eq_ix2 j⟩
  refine (Cert.Sage.pay1_apply (iblk1 V c 0 t) (iblk1 V c 1 t) (iblk1 V c 2 t) (iblk1 V c 3 t) (iblk1 V c 4 t) p q).trans ?_
  have hp : p.val < 5000 := p.isLt
  let r : Fin 50000 := ⟨win1_5.index t (0 : Fin 2) * 5000 + p.val, by omega⟩
  have hemb : ((cfg1.win 5).blk t).view.emb (ix2 p q) = ix2 r q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * q.val = q.val; omega
  show _ = G1 V c (((cfg1.win 5).blk t).view.emb (ix2 p q))
  rw [hemb]
  unfold G1
  rw [Cert.Sage.reluU_apply, Cert.Sage.layerU_apply]
  simp only [feat1 V c t p _ r rfl, mean1 V c t p _ r rfl, wself1 V c t, wneigh1 V c t, bias1 V c t]

/-- An index is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v51).slice (win1_5.rect t)).set ↔ _
  rw [View.set_slice_whole, Rect.mem_set_unit]
  exact Iff.rfl

/-- The 10 blocks tile the rows: row r is in block r / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the launch its result array is max(layer, 0) of the arrays it found. -/
theorem final1 (c : Dev nD) : (dat1 (F := Ideal) V c).arrAt 5 cfg1.N = G1 V c :=
  (dat1 (F := Ideal) V c).arrAt_eq_of_cover 5 (G1 V c) (fun t _ => flushed1 V c t) (cover1)

end Cert.KernelIdeal.Layers

end
-- ==== Proof.Trace1.lean ====
/-
  Following the arrays through the program, first layer. Between launches the program runs stretches of
  array operations on the host; the contents of every buffer at each boundary are a fold of those operations
  over the launch memory. Read at the buffers the first two launches take, the fold gives: the two feature
  arrays as launched, the two neighbour means of the launched features, and slices [0, 0] and [0, 1] of the
  stacked parameters. With what each launch leaves in its result, the item and user features after layer 0
  are the specification's, and the nine arguments still hold their launch contents.
-/
import proofs.«165764_j51711406244224_1_alg».proof.Proof.Region0
import proofs.«165764_j51711406244224_1_alg».proof.Proof.Region1
import Idealize.ShloMosaic.Lib.StableHlo.Run

set_option maxRecDepth 16384
set_option quotPrecheck false

noncomputable section

namespace Cert.KernelIdeal.Trace

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "I1" => Cert.Sage.item1 (F := Ideal) A0 A1 A2 A3 A4 A5 A6
local notation "U1" => Cert.Sage.user1 (F := Ideal) A0 A1 A2 A3 A4 A7 A8
local notation "I2" => Cert.Sage.item2 (F := Ideal) A0 A1 A2 A3 A4 A5 A6 A7 A8
local notation "U2" => Cert.Sage.user2 (F := Ideal) A0 A1 A2 A3 A4 A5 A6 A7 A8
local notation "I3" => Cert.Sage.item3 (F := Ideal) A0 A1 A2 A3 A4 A5 A6 A7 A8
local notation "U3" => Cert.Sage.user3 (F := Ideal) A0 A1 A2 A3 A4 A5 A6 A7 A8

/-! ## Before launch 0: the first host stretch read over the launch memory -/

theorem b1_arg0 : W1 m ρ c (Proc.devRef .tc main_arg0) = A0 := by
  show StableHlo.after hostOps0 (W0 m ρ c) (Proc.devRef .tc main_arg0) = _
  dsimp only [hostOps0]; after_results_simp
theorem b1_arg1 : W1 m ρ c (Proc.devRef .tc main_arg1) = A1 := by
  show StableHlo.after hostOps0 (W0 m ρ c) (Proc.devRef .tc main_arg1) = _
  dsimp only [hostOps0]; after_results_simp
theorem b1_arg2 : W1 m ρ c (Proc.devRef .tc main_arg2) = A2 := by
  show StableHlo.after hostOps0 (W0 m ρ c) (Proc.devRef .tc main_arg2) = _
  dsimp only [hostOps0]; after_results_simp
theorem b1_arg3 : W1 m ρ c (Proc.devRef .tc main_arg3) = A3 := by
  show StableHlo.after hostOps0 (W0 m ρ c) (Proc.devRef .tc main_arg3) = _
  dsimp only [hostOps0]; after_results_simp
theorem b1_arg4 : W1 m ρ c (Proc.devRef .tc main_arg4) = A4 := by
  show StableHlo.after hostOps0 (W0 m ρ c) (Proc.devRef .tc main_arg4) = _
  dsimp only [hostOps0]; after_results_simp
theorem b1_arg5 : W1 m ρ c (Proc.devRef .tc main_arg5) = A5 := by
  show StableHlo.after hostOps0 (W0 m ρ c) (Proc.devRef .tc main_arg5) = _
  dsimp only [hostOps0]; after_results_simp
theorem b1_arg6 : W1 m ρ c (Proc.devRef .tc main_arg6) = A6 := by
  show StableHlo.after hostOps0 (W0 m ρ c) (Proc.devRef .tc main_arg6) = _
  dsimp only [hostOps0]; after_results_simp
theorem b1_arg7 : W1 m ρ c (Proc.devRef .tc main_arg7) = A7 := by
  show StableHlo.after hostOps0 (W0 m ρ c) (Proc.devRef .tc main_arg7) = _
  dsimp only [hostOps0]; after_results_simp
theorem b1_arg8 : W1 m ρ c (Proc.devRef .tc main_arg8) = A8 := by
  show StableHlo.after hostOps0 (W0 m ρ c) (Proc.devRef .tc main_arg8) = _
  dsimp only [hostOps0]; after_results_simp

/-- The item neighbour mean of the launched user features. -/
theorem b1_v18 : W1 m ρ c (Proc.devRef .tc main_v18) = Cert.Sage.meanI (F := Ideal) A0 A5 A6 := by
  show StableHlo.after hostOps0 (W0 m ρ c) (Proc.devRef .tc main_v18) = _
  dsimp only [hostOps0]; after_results_simp
  unfold Cert.Sage.meanI
  rfl
/-- The user neighbour mean of the launched item features. -/
theorem b1_v37 : W1 m ρ c (Proc.devRef .tc main_v37) = Cert.Sage.meanU (F := Ideal) A1 A7 A8 := by
  show StableHlo.after hostOps0 (W0 m ρ c) (Proc.devRef .tc main_v37) = _
  dsimp only [hostOps0]; after_results_simp
  unfold Cert.Sage.meanU
  rfl
theorem b1_v39 : W1 m ρ c (Proc.devRef .tc main_v39) = Cert.Sage.mat00 (F := Ideal) A2 := by
  show StableHlo.after hostOps0 (W0 m ρ c) (Proc.devRef .tc main_v39) = _
  dsimp only [hostOps0]; after_results_simp
  unfold Cert.Sage.mat00
  rfl
theorem b1_v41 : W1 m ρ c (Proc.devRef .tc main_v41) = Cert.Sage.mat00 (F := Ideal) A3 := by
  show StableHlo.after hostOps0 (W0 m ρ c) (Proc.devRef .tc main_v41) = _
  dsimp only [hostOps0]; after_results_simp
  unfold Cert.Sage.mat00
  rfl
theorem b1_v43 : W1 m ρ c (Proc.devRef .tc main_v43) = Cert.Sage.row00 (F := Ideal) A4 := by
  show StableHlo.after hostOps0 (W0 m ρ c) (Proc.devRef .tc main_v43) = _
  dsimp only [hostOps0]; after_results_simp
  unfold Cert.Sage.row00
  rfl

/-! ## After launch 0 -/

/-- Launch 0 leaves the item features after layer 0. -/
theorem b2_v44 : W2 m ρ c (Proc.devRef .tc main_v44) = I1 := by
  refine (W2_arr m ρ c 5).trans ((final0 (V1 m ρ) c).trans ?_)
  show Cert.Sage.reluI (F := Ideal) (Cert.Sage.layerI (F := Ideal) (W1 m ρ c (Proc.devRef .tc main_arg1)) (W1 m ρ c (Proc.devRef .tc main_v18))
    (W1 m ρ c (Proc.devRef .tc main_v39)) (W1 m ρ c (Proc.devRef .tc main_v41)) (W1 m ρ c (Proc.devRef .tc main_v43))) = _
  rw [b1_arg1 m ρ c, b1_v18 m ρ c, b1_v39 m ρ c, b1_v41 m ρ c, b1_v43 m ρ c]
  rfl

theorem b2_arg0 : W2 m ρ c (Proc.devRef .tc main_arg0) = A0 := (W2_of_ne m ρ c main_arg0 (by decide)).trans (b1_arg0 m ρ c)
theorem b2_arg2 : W2 m ρ c (Proc.devRef .tc main_arg2) = A2 := (W2_of_ne m ρ c main_arg2 (by decide)).trans (b1_arg2 m ρ c)
theorem b2_arg3 : W2 m ρ c (Proc.devRef .tc main_arg3) = A3 := (W2_of_ne m ρ c main_arg3 (by decide)).trans (b1_arg3 m ρ c)
theorem b2_arg4 : W2 m ρ c (Proc.devRef .tc main_arg4) = A4 := (W2_of_ne m ρ c main_arg4 (by decide)).trans (b1_arg4 m ρ c)
theorem b2_arg5 : W2 m ρ c (Proc.devRef .tc main_arg5) = A5 := (W2_of_ne m ρ c main_arg5 (by decide)).trans (b1_arg5 m ρ c)
theorem b2_arg6 : W2 m ρ c (Proc.devRef .tc main_arg6) = A6 := (W2_of_ne m ρ c main_arg6 (by decide)).trans (b1_arg6 m ρ c)
theorem b2_arg7 : W2 m ρ c (Proc.devRef .tc main_arg7) = A7 := (W2_of_ne m ρ c main_arg7 (by decide)).trans (b1_arg7 m ρ c)
theorem b2_arg8 : W2 m ρ c (Proc.devRef .tc main_arg8) = A8 := (W2_of_ne m ρ c main_arg8 (by decide)).trans (b1_arg8 m ρ c)
theorem b2_v37 : W2 m ρ c (Proc.devRef .tc main_v37) = Cert.Sage.meanU (F := Ideal) A1 A7 A8 :=
  (W2_of_ne m ρ c main_v37 (by decide)).trans (b1_v37 m ρ c)

/-! ## Before launch 1: the second host stretch -/

theorem b3_arg0 : W3 m ρ c (Proc.devRef .tc main_arg0) = A0 := by
  show StableHlo.after hostOps1 (W2 m ρ c) (Proc.devRef .tc main_arg0) = _
  dsimp only [hostOps1]; after_results_simp; exact b2_arg0 m ρ c
theorem b3_arg2 : W3 m ρ c (Proc.devRef .tc main_arg2) = A2 := by
  show StableHlo.after hostOps1 (W2 m ρ c) (Proc.devRef .tc main_arg2) = _
  dsimp only [hostOps1]; after_results_simp; exact b2_arg2 m ρ c
theorem b3_arg3 : W3 m ρ c (Proc.devRef .tc main_arg3) = A3 := by
  show StableHlo.after hostOps1 (W2 m ρ c) (Proc.devRef .tc main_arg3) = _
  dsimp only [hostOps1]; after_results_simp; exact b2_arg3 m ρ c
theorem b3_arg4 : W3 m ρ c (Proc.devRef .tc main_arg4) = A4 := by
  show StableHlo.after hostOps1 (W2 m ρ c) (Proc.devRef .tc main_arg4) = _
  dsimp only [hostOps1]; after_results_simp; exact b2_arg4 m ρ c
theorem b3_arg5 : W3 m ρ c (Proc.devRef .tc main_arg5) = A5 := by
  show StableHlo.after hostOps1 (W2 m ρ c) (Proc.devRef .tc main_arg5) = _
  dsimp only [hostOps1]; after_results_simp; exact b2_arg5 m ρ c
theorem b3_arg6 : W3 m ρ c (Proc.devRef .tc main_arg6) = A6 := by
  show StableHlo.after hostOps1 (W2 m ρ c) (Proc.devRef .tc main_arg6) = _
  dsimp only [hostOps1]; after_results_simp; exact b2_arg6 m ρ c
theorem b3_arg7 : W3 m ρ c (Proc.devRef .tc main_arg7) = A7 := by
  show StableHlo.after hostOps1 (W2 m ρ c) (Proc.devRef .tc main_arg7) = _
  dsimp only [hostOps1]; after_results_simp; exact b2_arg7 m ρ c
theorem b3_arg8 : W3 m ρ c (Proc.devRef .tc main_arg8) = A8 := by
  show StableHlo.after hostOps1 (W2 m ρ c) (Proc.devRef .tc main_arg8) = _
  dsimp only [hostOps1]; after_results_simp; exact b2_arg8 m ρ c
theorem b3_v37 : W3 m ρ c (Proc.devRef .tc main_v37) = Cert.Sage.meanU (F := Ideal) A1 A7 A8 := by
  show StableHlo.after hostOps1 (W2 m ρ c) (Proc.devRef .tc main_v37) = _
  dsimp only [hostOps1]; after_results_simp; exact b2_v37 m ρ c
theorem b3_v44 : W3 m ρ c (Proc.devRef .tc main_v44) = I1 := by
  show StableHlo.after hostOps1 (W2 m ρ c) (Proc.devRef .tc main_v44) = _
  dsimp only [hostOps1]; after_results_simp; exact b2_v44 m ρ c
theorem b3_v46 : W3 m ρ c (Proc.devRef .tc main_v46) = Cert.Sage.mat01 (F := Ideal) A2 := by
  show StableHlo.after hostOps1 (W2 m ρ c) (Proc.devRef .tc main_v46) = _
  dsimp only [hostOps1]; after_results_simp
  rw [b2_arg2 m ρ c]; unfold Cert.Sage.mat01; rfl
theorem b3_v48 : W3 m ρ c (Proc.devRef .tc main_v48) = Cert.Sage.mat01 (F := Ideal) A3 := by
  show StableHlo.after hostOps1 (W2 m ρ c) (Proc.devRef .tc main_v48) = _
  dsimp only [hostOps1]; after_results_simp
  rw [b2_arg3 m ρ c]; unfold Cert.Sage.mat01; rfl
theorem b3_v50 : W3 m ρ c (Proc.devRef .tc main_v50) = Cert.Sage.row01 (F := Ideal) A4 := by
  show StableHlo.after hostOps1 (W2 m ρ c) (Proc.devRef .tc main_v50) = _
  dsimp only [hostOps1]; after_results_simp
  rw [b2_arg4 m ρ c]; unfold Cert.Sage.row01; rfl

/-! ## After launch 1 -/

/-- Launch 1 leaves the user features after layer 0. -/
theorem b4_v51 : W4 m ρ c (Proc.devRef .tc main_v51) = U1 := by
  refine (W4_arr m ρ c 5).trans ((final1 (V3 m ρ) c).trans ?_)
  show Cert.Sage.reluU (F := Ideal) (Cert.Sage.layerU (F := Ideal) (W3 m ρ c (Proc.devRef .tc main_arg0)) (W3 m ρ c (Proc.devRef .tc main_v37))
    (W3 m ρ c (Proc.devRef .tc main_v46)) (W3 m ρ c (Proc.devRef .tc main_v48)) (W3 m ρ c (Proc.devRef .tc main_v50))) = _
  rw [b3_arg0 m ρ c, b3_v37 m ρ c, b3_v46 m ρ c, b3_v48 m ρ c, b3_v50 m ρ c]
  rfl

theorem b4_v44 : W4 m ρ c (Proc.devRef .tc main_v44) = I1 := (W4_of_ne m ρ c main_v44 (by decide)).trans (b3_v44 m ρ c)
theorem b4_arg2 : W4 m ρ c (Proc.devRef .tc main_arg2) = A2 := (W4_of_ne m ρ c main_arg2 (by decide)).trans (b3_arg2 m ρ c)
theorem b4_arg3 : W4 m ρ c (Proc.devRef .tc main_arg3) = A3 := (W4_of_ne m ρ c main_arg3 (by decide)).trans (b3_arg3 m ρ c)
theorem b4_arg4 : W4 m ρ c (Proc.devRef .tc main_arg4) = A4 := (W4_of_ne m ρ c main_arg4 (by decide)).trans (b3_arg4 m ρ c)
theorem b4_arg5 : W4 m ρ c (Proc.devRef .tc main_arg5) = A5 := (W4_of_ne m ρ c main_arg5 (by decide)).trans (b3_arg5 m ρ c)
theorem b4_arg6 : W4 m ρ c (Proc.devRef .tc main_arg6) = A6 := (W4_of_ne m ρ c main_arg6 (by decide)).trans (b3_arg6 m ρ c)
theorem b4_arg7 : W4 m ρ c (Proc.devRef .tc main_arg7) = A7 := (W4_of_ne m ρ c main_arg7 (by decide)).trans (b3_arg7 m ρ c)
theorem b4_arg8 : W4 m ρ c (Proc.devRef .tc main_arg8) = A8 := (W4_of_ne m ρ c main_arg8 (by decide)).trans (b3_arg8 m ρ c)

end Cert.KernelIdeal.Trace

end
-- ==== Proof.Region2.lean ====
/-
  Launch 2 (item rows, layer 1). As launch 0 over the outputs of layer 0: 20 blocks of 5000 item rows; at
  point t it reads rows 5000·t … 5000·t + 4999 of the item features after layer 0 and of their neighbour
  mean, the whole of layer 1's item matrices and bias row, and writes the same rows of its result:
  max(·, 0) of the layer's entry for that row. The blocks tile the rows, so after the launch the result
  array is max(layer, 0) of the arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a; rfl

/-- Over the 20 points: the two row-blocked inputs move with the output, block column 0; the matrices and the
    bias sit at block 0; the output's block row is below 20. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 19 :=
  (by decide +kernel : ∀ t : Fin grid2.N, _)

/-- Every block row below 20 is some point's. -/
theorem onto2 : ∀ q0 : Fin 20, ∃ t : Fin cfg2.N, win2_5.index t = ![q0.val, 0] :=
  (by decide +kernel : ∀ q0 : Fin 20, ∃ t : Fin grid2.N, win2_5.index t = ![q0.val, 0])

/-- Row p of the block of the item features at point t is row 5000·(block row) + p of the array. -/
theorem feat2 (c : Dev nD) (t : Fin cfg2.N) (p : Fin 5000) (k : Fin 128) (r : Fin 100000)
    (hr : r.val = win2_5.index t (0 : Fin 2) * 5000 + p.val) :
    iblk2 V c 0 t (ix2 p k) = V c main_v44 (ix2 r k) := by
  obtain ⟨e00, e01, -⟩ := idx2 t
  show V c main_v44 (((cfg2.win 0).blk t).view.emb (ix2 p k)) = V c main_v44 (ix2 r k)
  refine congrArg (V c main_v44) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for the neighbour mean. -/
theorem mean2 (c : Dev nD) (t : Fin cfg2.N) (p : Fin 5000) (k : Fin 128) (r : Fin 100000)
    (hr : r.val = win2_5.index t (0 : Fin 2) * 5000 + p.val) :
    iblk2 V c 1 t (ix2 p k) = V c main_v70 (ix2 r k) := by
  obtain ⟨-, -, e10, e11, -⟩ := idx2 t
  show V c main_v70 (((cfg2.win 1).blk t).view.emb (ix2 p k)) = V c main_v70 (ix2 r k)
  refine congrArg (V c main_v70) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The one block of each matrix and of the bias row is the whole array. -/
theorem wself2 (c : Dev nD) (t : Fin cfg2.N) : iblk2 V c 2 t = V c main_v91 := by
  obtain ⟨-, -, -, -, e20, e21, -⟩ := idx2 t
  funext j
  show V c main_v91 (((cfg2.win 2).blk t).view.emb j) = V c main_v91 j
  refine congrArg (V c main_v91) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega
theorem wneigh2 (c : Dev nD) (t : Fin cfg2.N) : iblk2 V c 3 t = V c main_v93 := by
  obtain ⟨-, -, -, -, -, -, e30, e31, -⟩ := idx2 t
  funext j
  show V c main_v93 (((cfg2.win 3).blk t).view.emb j) = V c main_v93 j
  refine congrArg (V c main_v93) (funext fun a => Fin.ext ?_)
  match a with
  | ⟨0, _⟩ => show win2_3.index t (0 : Fin 2) * 128 + 1 * (j 0).val = (j 0).val; omega
  | ⟨1, _⟩ => show win2_3.index t (1 : Fin 2) * 128 + 1 * (j 1).val = (j 1).val; omega
theorem bias2 (c : Dev nD) (t : Fin cfg2.N) : iblk2 V c 4 t = V c main_v95 := by
  obtain ⟨-, -, -, -, -, -, -, -, e40, -⟩ := idx2 t
  funext j
  show V c main_v95 (((cfg2.win 4).blk t).view.emb j) = V c main_v95 j
  refine congrArg (V c main_v95) (funext fun a => Fin.ext ?_)
  match a with
  | ⟨0, _⟩ => show win2_4.index t (0 : Fin 1) * 128 + 1 * (j 0).val = (j 0).val; omega

/-- What the launch leaves in its result, as one function of the arrays it found. -/
abbrev G2 (c : Dev nD) : Cert.ReferenceIdeal.S100000x128.Idx → EReal :=
  Cert.Sage.reluI (F := Ideal) (Cert.Sage.layerI (F := Ideal) (V c main_v44) (V c main_v70) (V c main_v91) (V c main_v93) (V c main_v95))

/-- What point t writes back is block t of that function. -/
theorem flushed2 (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero zero2_2]
  simp only [View.ld_unit_zero (S := S5000x128) zero2_2, View.ld_unit_zero (S := S128x128) zero2_2, View.ld_unit_zero (S := S128) zero1_2]
  obtain ⟨-, -, -, -, -, -, -, -, -, e51, e5b⟩ := idx2 t
  funext j
  obtain ⟨p, q, rfl⟩ : ∃ (p : Fin 5000) (q : Fin 128), j = ix2 p q := ⟨j 0, j 1, eq_ix2 j⟩
  refine (Cert.Sage.pay2_apply (iblk2 V c 0 t) (iblk2 V c 1 t) (iblk2 V c 2 t) (iblk2 V c 3 t) (iblk2 V c 4 t) p q).trans ?_
  have hp : p.val < 5000 := p.isLt
  let r : Fin 100000 := ⟨win2_5.index t (0 : Fin 2) * 5000 + p.val, by omega⟩
  have hemb : ((cfg2.win 5).blk t).view.emb (ix2 p q) = ix2 r q := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 128 + 1 * q.val = q.val; omega
  show _ = G2 V c (((cfg2.win 5).blk t).view.emb (ix2 p q))
  rw [hemb]
  unfold G2
  rw [Cert.Sage.reluI_apply, Cert.Sage.layerI_apply]
  simp only [feat2 V c t p _ r rfl, mean2 V c t p _ r rfl, wself2 V c t, wneigh2 V c t, bias2 V c t]

/-- An index is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v96).slice (win2_5.rect t)).set ↔ _
  rw [View.set_slice_whole, Rect.mem_set_unit]
  exact Iff.rfl

/-- The 20 blocks tile the rows: row r is in block r / 5000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the launch its result array is max(layer, 0) of the arrays it found. -/
theorem final2 (c : Dev nD) : (dat2 (F := Ideal) V c).arrAt 5 cfg2.N = G2 V c :=
  (dat2 (F := Ideal) V c).arrAt_eq_of_cover 5 (G2 V c) (fun t _ => flushed2 V c t) (cover2)

end Cert.KernelIdeal.Layers

end
-- ==== Proof.Region3.lean ====
/-
  Launch 3 (user rows, layer 1). As launch 1 over the outputs of layer 0: 10 blocks of 5000 user rows; at
  point t it reads rows 5000·t … 5000·t + 4999 of the user features after layer 0 and of their neighbour
  mean, the whole of layer 1's user matrices and bias row, and writes the same rows of its result:
  max(·, 0) of the layer's entry for that row. The blocks tile the rows, so after the launch the result
  array is max(layer, 0) of the arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_3 : (![0, 0] : Fin 2 → Nat) = fun _ => 0 := funext fun a => by fin_cases a <;> rfl
theorem zero1_3 : (![0] : Fin 1 → Nat) = fun _ => 0 := funext fun a => by fin_cases a; rfl

/-- Over the 10 points: the two row-blocked inputs move with the output, block column 0; the matrices and the
    bias sit at block 0; the output's block row is below 10. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (1 : Fin 2) = 0 ∧ win3_5.index t (0 : Fin 2) ≤ 9 :=
  (by decide +kernel : ∀ t : Fin grid3.N, _)

/-- Every block row below 10 is some point's. -/
theorem onto3 : ∀ q0 : Fin 10, ∃ t : Fin cfg3.N, win3_5.index t = ![q0.val, 0] :=
  (by decide +kernel : ∀ q0 : Fin 10, ∃ t : Fin grid3.N, win3_5.index t = ![q0.val, 0])

/-- Row p of the block of the user features at point t is row 5000·(block row) + p of the array. -/
theorem feat3 (c : Dev nD) (t : Fin cfg3.N) (p : Fin 5000) (k : Fin 128) (r : Fin 50000)
    (hr : r.val = win3_5.index t (0 : Fin 2) * 5000 + p.val) :
    iblk3 V c 0 t (ix2 p k) = V c main_v51 (ix2 r k) := by
  obtain ⟨e00, e01, -⟩ := idx3 t
  show V c main_v51 (((cfg3.win 0).blk t).view.emb (ix2 p k)) = V c main_v51 (ix2 r k)
  refine congrArg (V c main_v51) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The same for the neighbour mean. -/
theorem mean3 (c : Dev nD) (t : Fin cfg3.N) (p : Fin 5000) (k : Fin 128) (r : Fin 50000)
    (hr : r.val = win3_5.index t (0 : Fin 2) * 5000 + p.val) :
    iblk3 V c 1 t (ix2 p k) = V c main_v89 (ix2 r k) := by
  obtain ⟨-, -, e10, e11, -⟩ := idx3 t
  show V c main_v89 (((cfg3.win 1).blk t).view.emb (ix2 p k)) = V c main_v89 (ix2 r k)
  refine congrArg (V c main_v89) (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- The one block of each matrix and of the bias row is the whole array. -/
theorem wself3 (c : Dev nD) (t : Fin cfg3.N) : iblk3 V c 2 t = V c main_v98 := by
  obtain ⟨-, -, -, -, e20, e21, -⟩ := idx3 t
  funext j
  show V c main_v98 (((cfg3.win 2).blk t).view.emb j) = V c main_v98 j
  refine congrArg (V c main_v98) (funext fun a => Fin.ext ?_)
  match a with
  | ⟨0, _⟩ => show win3_2.index t (0 : Fin 2) * 128 + 1 * (j 0).val = (j 0).val; omega
  | ⟨1, _⟩ => show win3_2.index t (1 : Fin 2) * 128 + 1 * (j 1).val = (j 1).val; omega
theorem wneigh3 (c : Dev nD) (t : Fin cfg3.N) : iblk3 V c 3 t = V c main_v100 := by
  obtain ⟨-, -, -, -, -, -, e30, e31, -⟩ := idx3 t
  funext j
  show V c main_v100 (((cfg3.win 3).blk t).view.emb j) = V c main_v100 j
  refine congrArg (V c main_v100) (funext fun a => Fin.ext ?_)
  match a with
  | ⟨0, _⟩ => show win3_3.index t (0 : Fin 2) * 128 + 1 * (j 0).val = (j 0).val; omega
  | ⟨1, _⟩ => show win3_3.index t (1 : Fin 2) * 128 + 1 * (j 1).val = (j 1).val; omega
theorem bias3 (c : Dev nD) (t : Fin cfg3.N) : iblk3 V c 4 t = V c main_v102 := by
  obtain ⟨-, -, -, -, -, -, -, -, e40, -⟩ := idx3 t
  funext j
  show V c main_v102 (((cfg3.win 4).blk t).view.emb j) = V c main_v102 j
  refine congrArg (V c main_v102) (funext fun a => Fin.ext ?_)
  match a with
  | ⟨0, _⟩ => show win3_4.index t (0 : Fin 1) * 128 + 1 * (j 0).val = (j 0).val; omega

/-- What the launch leaves in its result, as one function of the arrays it found. -/
abbrev G3 (c : Dev nD) : Cert.ReferenceIdeal.S50000x128.Idx → EReal :=
  Cert.Sage.reluU (F := Ideal) (Cert.Sage.layerU (F := Ideal) (V c main_v51) (V c main_v89) (V c main_v98) (V c main_v100) (V c main_v102))

/-- What point t writes back is block t of that function. -/
theorem flushed3 (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero zero2_3]
  simp only [View.ld_unit_zero (S := S5000x128) zero2_3, View.ld_unit_zero (S := S128x128) zero2_3, View.ld_unit_zero (S := S128) zero1_3]
  obtain ⟨-, -, -, -, -, -, -, -, -, e51, e5b⟩ := idx3 t
  funext j
  obtain ⟨p, q, rfl⟩ : ∃ (p : Fin 5000) (q : Fin 128), j = ix2 p q := ⟨j 0, j 1, eq_ix2 j⟩
  refine (Cert.Sage.pay3_apply (iblk3 V c 0 t) (iblk3 V c 1 t) (iblk3 V c 2 t) (iblk3 V c 3 t) (iblk3 V c 4 t) p q).trans ?_
  have hp : p.val < 5000 := p.isLt
  let r : Fin 50000 := ⟨win3_5.index t (0 : Fin 2) * 5000 + p.val, by omega⟩
  have hemb : ((cfg3.win 5).blk t).view.emb (ix2 p q) = ix2 r q := by
    funext a; apply Fin.ext
    match a with
    | ⟨0, _⟩ => show win3_5.index t (0 : Fin 2) * 5000 + 1 * p.val = win3_5.index t (0 : Fin 2) * 5000 + p.val; omega
    | ⟨1, _⟩ => show win3_5.index t (1 : Fin 2) * 128 + 1 * q.val = q.val; omega
  show _ = G3 V c (((cfg3.win 5).blk t).view.emb (ix2 p q))
  rw [hemb]
  unfold G3
  rw [Cert.Sage.reluU_apply, Cert.Sage.layerU_apply]
  simp only [feat3 V c t p _ r rfl, mean3 V c t p _ r rfl, wself3 V c t, wneigh3 V c t, bias3 V c t]

/-- An index is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v103).slice (win3_5.rect t)).set ↔ _
  rw [View.set_slice_whole, Rect.mem_set_unit]
  exact Iff.rfl

/-- The 10 blocks tile the rows: row r is in block r / 5000. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- After the launch its result array is max(layer, 0) of the arrays it found. -/
theorem final3 (c : Dev nD) : (dat3 (F := Ideal) V c).arrAt 5 cfg3.N = G3 V c :=
  (dat3 (F := Ideal) V c).arrAt_eq_of_cover 5 (G3 V c) (fun t _ => flushed3 V c t) (cover3)

end Cert.KernelIdeal.Layers

end
-- ==== Proof.Trace2.lean ====
/-
  Following the arrays through the program, second layer. The third host stretch reads the two outputs of
  layer 0: it forms the item neighbour mean of the user features and the user neighbour mean of the item
  features, and slices [1, 0] of the stacked parameters; the fourth host stretch slices [1, 1]. With what
  launches 2 and 3 leave, the item and user features after layer 1 are the specification's, and the
  arguments the later stretches read still hold their launch contents.
-/
import proofs.«165764_j51711406244224_1_alg».proof.Proof.Trace1
import proofs.«165764_j51711406244224_1_alg».proof.Proof.Region2
import proofs.«165764_j51711406244224_1_alg».proof.Proof.Region3
import Idealize.ShloMosaic.Lib.StableHlo.Run

set_option maxRecDepth 16384
set_option quotPrecheck false

noncomputable section

namespace Cert.KernelIdeal.Trace

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "I1" => Cert.Sage.item1 (F := Ideal) A0 A1 A2 A3 A4 A5 A6
local notation "U1" => Cert.Sage.user1 (F := Ideal) A0 A1 A2 A3 A4 A7 A8
local notation "I2" => Cert.Sage.item2 (F := Ideal) A0 A1 A2 A3 A4 A5 A6 A7 A8
local notation "U2" => Cert.Sage.user2 (F := Ideal) A0 A1 A2 A3 A4 A5 A6 A7 A8
local notation "I3" => Cert.Sage.item3 (F := Ideal) A0 A1 A2 A3 A4 A5 A6 A7 A8
local notation "U3" => Cert.Sage.user3 (F := Ideal) A0 A1 A2 A3 A4 A5 A6 A7 A8

/-! ## Before launch 2: the third host stretch -/

theorem b5_v44 : W5 m ρ c (Proc.devRef .tc main_v44) = I1 := by
  show StableHlo.after hostOps2 (W4 m ρ c) (Proc.devRef .tc main_v44) = _
  dsimp only [hostOps2]; after_results_simp; exact b4_v44 m ρ c
theorem b5_v51 : W5 m ρ c (Proc.devRef .tc main_v51) = U1 := by
  show StableHlo.after hostOps2 (W4 m ρ c) (Proc.devRef .tc main_v51) = _
  dsimp only [hostOps2]; after_results_simp; exact b4_v51 m ρ c
theorem b5_arg2 : W5 m ρ c (Proc.devRef .tc main_arg2) = A2 := by
  show StableHlo.after hostOps2 (W4 m ρ c) (Proc.devRef .tc main_arg2) = _
  dsimp only [hostOps2]; after_results_simp; exact b4_arg2 m ρ c
theorem b5_arg3 : W5 m ρ c (Proc.devRef .tc main_arg3) = A3 := by
  show StableHlo.after hostOps2 (W4 m ρ c) (Proc.devRef .tc main_arg3) = _
  dsimp only [hostOps2]; after_results_simp; exact b4_arg3 m ρ c
theorem b5_arg4 : W5 m ρ c (Proc.devRef .tc main_arg4) = A4 := by
  show StableHlo.after hostOps2 (W4 m ρ c) (Proc.devRef .tc main_arg4) = _
  dsimp only [hostOps2]; after_results_simp; exact b4_arg4 m ρ c
theorem b5_arg5 : W5 m ρ c (Proc.devRef .tc main_arg5) = A5 := by
  show StableHlo.after hostOps2 (W4 m ρ c) (Proc.devRef .tc main_arg5) = _
  dsimp only [hostOps2]; after_results_simp; exact b4_arg5 m ρ c
theorem b5_arg6 : W5 m ρ c (Proc.devRef .tc main_arg6) = A6 := by
  show StableHlo.after hostOps2 (W4 m ρ c) (Proc.devRef .tc main_arg6) = _
  dsimp only [hostOps2]; after_results_simp; exact b4_arg6 m ρ c
theorem b5_arg7 : W5 m ρ c (Proc.devRef .tc main_arg7) = A7 := by
  show StableHlo.after hostOps2 (W4 m ρ c) (Proc.devRef .tc main_arg7) = _
  dsimp only [hostOps2]; after_results_simp; exact b4_arg7 m ρ c
theorem b5_arg8 : W5 m ρ c (Proc.devRef .tc main_arg8) = A8 := by
  show StableHlo.after hostOps2 (W4 m ρ c) (Proc.devRef .tc main_arg8) = _
  dsimp only [hostOps2]; after_results_simp; exact b4_arg8 m ρ c

/-- The item neighbour mean of the user features after layer 0. -/
theorem b5_v70 : W5 m ρ c (Proc.devRef .tc main_v70) = Cert.Sage.meanI (F := Ideal) U1 A5 A6 := by
  show StableHlo.after hostOps2 (W4 m ρ c) (Proc.devRef .tc main_v70) = _
  dsimp only [hostOps2]; after_results_simp
  rw [b4_v51 m ρ c, b4_arg5 m ρ c, b4_arg6 m ρ c]
  unfold Cert.Sage.meanI
  rfl
/-- The user neighbour mean of the item features after layer 0. -/
theorem b5_v89 : W5 m ρ c (Proc.devRef .tc main_v89) = Cert.Sage.meanU (F := Ideal) I1 A7 A8 := by
  show StableHlo.after hostOps2 (W4 m ρ c) (Proc.devRef .tc main_v89) = _
  dsimp only [hostOps2]; after_results_simp
  rw [b4_v44 m ρ c, b4_arg7 m ρ c, b4_arg8 m ρ c]
  unfold Cert.Sage.meanU
  rfl
theorem b5_v91 : W5 m ρ c (Proc.devRef .tc main_v91) = Cert.Sage.mat10 (F := Ideal) A2 := by
  show StableHlo.after hostOps2 (W4 m ρ c) (Proc.devRef .tc main_v91) = _
  dsimp only [hostOps2]; after_results_simp
  rw [b4_arg2 m ρ c]; unfold Cert.Sage.mat10; rfl
theorem b5_v93 : W5 m ρ c (Proc.devRef .tc main_v93) = Cert.Sage.mat10 (F := Ideal) A3 := by
  show StableHlo.after hostOps2 (W4 m ρ c) (Proc.devRef .tc main_v93) = _
  dsimp only [hostOps2]; after_results_simp
  rw [b4_arg3 m ρ c]; unfold Cert.Sage.mat10; rfl
theorem b5_v95 : W5 m ρ c (Proc.devRef .tc main_v95) = Cert.Sage.row10 (F := Ideal) A4 := by
  show StableHlo.after hostOps2 (W4 m ρ c) (Proc.devRef .tc main_v95) = _
  dsimp only [hostOps2]; after_results_simp
  rw [b4_arg4 m ρ c]; unfold Cert.Sage.row10; rfl

/-! ## After launch 2 -/

/-- Launch 2 leaves the item features after layer 1. -/
theorem b6_v96 : W6 m ρ c (Proc.devRef .tc main_v96) = I2 := by
  refine (W6_arr m ρ c 5).trans ((final2 (V5 m ρ) c).trans ?_)
  show Cert.Sage.reluI (F := Ideal) (Cert.Sage.layerI (F := Ideal) (W5 m ρ c (Proc.devRef .tc main_v44)) (W5 m ρ c (Proc.devRef .tc main_v70))
    (W5 m ρ c (Proc.devRef .tc main_v91)) (W5 m ρ c (Proc.devRef .tc main_v93)) (W5 m ρ c (Proc.devRef .tc main_v95))) = _
  rw [b5_v44 m ρ c, b5_v70 m ρ c, b5_v91 m ρ c, b5_v93 m ρ c, b5_v95 m ρ c]
  rfl

theorem b6_v51 : W6 m ρ c (Proc.devRef .tc main_v51) = U1 := (W6_of_ne m ρ c main_v51 (by decide)).trans (b5_v51 m ρ c)
theorem b6_v89 : W6 m ρ c (Proc.devRef .tc main_v89) = Cert.Sage.meanU (F := Ideal) I1 A7 A8 :=
  (W6_of_ne m ρ c main_v89 (by decide)).trans (b5_v89 m ρ c)
theorem b6_arg2 : W6 m ρ c (Proc.devRef .tc main_arg2) = A2 := (W6_of_ne m ρ c main_arg2 (by decide)).trans (b5_arg2 m ρ c)
theorem b6_arg3 : W6 m ρ c (Proc.devRef .tc main_arg3) = A3 := (W6_of_ne m ρ c main_arg3 (by decide)).trans (b5_arg3 m ρ c)
theorem b6_arg4 : W6 m ρ c (Proc.devRef .tc main_arg4) = A4 := (W6_of_ne m ρ c main_arg4 (by decide)).trans (b5_arg4 m ρ c)
theorem b6_arg5 : W6 m ρ c (Proc.devRef .tc main_arg5) = A5 := (W6_of_ne m ρ c main_arg5 (by decide)).trans (b5_arg5 m ρ c)
theorem b6_arg6 : W6 m ρ c (Proc.devRef .tc main_arg6) = A6 := (W6_of_ne m ρ c main_arg6 (by decide)).trans (b5_arg6 m ρ c)
theorem b6_arg7 : W6 m ρ c (Proc.devRef .tc main_arg7) = A7 := (W6_of_ne m ρ c main_arg7 (by decide)).trans (b5_arg7 m ρ c)
theorem b6_arg8 : W6 m ρ c (Proc.devRef .tc main_arg8) = A8 := (W6_of_ne m ρ c main_arg8 (by decide)).trans (b5_arg8 m ρ c)

/-! ## Before launch 3: the fourth host stretch -/

theorem b7_v51 : W7 m ρ c (Proc.devRef .tc main_v51) = U1 := by
  show StableHlo.after hostOps3 (W6 m ρ c) (Proc.devRef .tc main_v51) = _
  dsimp only [hostOps3]; after_results_simp; exact b6_v51 m ρ c
theorem b7_v89 : W7 m ρ c (Proc.devRef .tc main_v89) = Cert.Sage.meanU (F := Ideal) I1 A7 A8 := by
  show StableHlo.after hostOps3 (W6 m ρ c) (Proc.devRef .tc main_v89) = _
  dsimp only [hostOps3]; after_results_simp; exact b6_v89 m ρ c
theorem b7_v96 : W7 m ρ c (Proc.devRef .tc main_v96) = I2 := by
  show StableHlo.after hostOps3 (W6 m ρ c) (Proc.devRef .tc main_v96) = _
  dsimp only [hostOps3]; after_results_simp; exact b6_v96 m ρ c
theorem b7_arg2 : W7 m ρ c (Proc.devRef .tc main_arg2) = A2 := by
  show StableHlo.after hostOps3 (W6 m ρ c) (Proc.devRef .tc main_arg2) = _
  dsimp only [hostOps3]; after_results_simp; exact b6_arg2 m ρ c
theorem b7_arg3 : W7 m ρ c (Proc.devRef .tc main_arg3) = A3 := by
  show StableHlo.after hostOps3 (W6 m ρ c) (Proc.devRef .tc main_arg3) = _
  dsimp only [hostOps3]; after_results_simp; exact b6_arg3 m ρ c
theorem b7_arg4 : W7 m ρ c (Proc.devRef .tc main_arg4) = A4 := by
  show StableHlo.after hostOps3 (W6 m ρ c) (Proc.devRef .tc main_arg4) = _
  dsimp only [hostOps3]; after_results_simp; exact b6_arg4 m ρ c
theorem b7_arg5 : W7 m ρ c (Proc.devRef .tc main_arg5) = A5 := by
  show StableHlo.after hostOps3 (W6 m ρ c) (Proc.devRef .tc main_arg5) = _
  dsimp only [hostOps3]; after_results_simp; exact b6_arg5 m ρ c
theorem b7_arg6 : W7 m ρ c (Proc.devRef .tc main_arg6) = A6 := by
  show StableHlo.after hostOps3 (W6 m ρ c) (Proc.devRef .tc main_arg6) = _
  dsimp only [hostOps3]; after_results_simp; exact b6_arg6 m ρ c
theorem b7_arg7 : W7 m ρ c (Proc.devRef .tc main_arg7) = A7 := by
  show StableHlo.after hostOps3 (W6 m ρ c) (Proc.devRef .tc main_arg7) = _
  dsimp only [hostOps3]; after_results_simp; exact b6_arg7 m ρ c
theorem b7_arg8 : W7 m ρ c (Proc.devRef .tc main_arg8) = A8 := by
  show StableHlo.after hostOps3 (W6 m ρ c) (Proc.devRef .tc main_arg8) = _
  dsimp only [hostOps3]; after_results_simp; exact b6_arg8 m ρ c
theorem b7_v98 : W7 m ρ c (Proc.devRef .tc main_v98) = Cert.Sage.mat11 (F := Ideal) A2 := by
  show StableHlo.after hostOps3 (W6 m ρ c) (Proc.devRef .tc main_v98) = _
  dsimp only [hostOps3]; after_results_simp
  rw [b6_arg2 m ρ c]; unfold Cert.Sage.mat11; rfl
theorem b7_v100 : W7 m ρ c (Proc.devRef .tc main_v100) = Cert.Sage.mat11 (F := Ideal) A3 := by
  show StableHlo.after hostOps3 (W6 m ρ c) (Proc.devRef .tc main_v100) = _
  dsimp only [hostOps3]; after_results_simp
  rw [b6_arg3 m ρ c]; unfold Cert.Sage.mat11; rfl
theorem b7_v102 : W7 m ρ c (Proc.devRef .tc main_v102) = Cert.Sage.row11 (F := Ideal) A4 := by
  show StableHlo.after hostOps3 (W6 m ρ c) (Proc.devRef .tc main_v102) = _
  dsimp only [hostOps3]; after_results_simp
  rw [b6_arg4 m ρ c]; unfold Cert.Sage.row11; rfl

/-! ## After launch 3 -/

/-- Launch 3 leaves the user features after layer 1. -/
theorem b8_v103 : W8 m ρ c (Proc.devRef .tc main_v103) = U2 := by
  refine (W8_arr m ρ c 5).trans ((final3 (V7 m ρ) c).trans ?_)
  show Cert.Sage.reluU (F := Ideal) (Cert.Sage.layerU (F := Ideal) (W7 m ρ c (Proc.devRef .tc main_v51)) (W7 m ρ c (Proc.devRef .tc main_v89))
    (W7 m ρ c (Proc.devRef .tc main_v98)) (W7 m ρ c (Proc.devRef .tc main_v100)) (W7 m ρ c (Proc.devRef .tc main_v102))) = _
  rw [b7_v51 m ρ c, b7_v89 m ρ c, b7_v98 m ρ c, b7_v100 m ρ c, b7_v102 m ρ c]
  rfl

theorem b8_v96 : W8 m ρ c (Proc.devRef .tc main_v96) = I2 := (W8_of_ne m ρ c main_v96 (by decide)).trans (b7_v96 m ρ c)
theorem b8_arg2 : W8 m ρ c (Proc.devRef .tc main_arg2) = A2 := (W8_of_ne m ρ c main_arg2 (by decide)).trans (b7_arg2 m ρ c)
theorem b8_arg3 : W8 m ρ c (Proc.devRef .tc main_arg3) = A3 := (W8_of_ne m ρ c main_arg3 (by decide)).trans (b7_arg3 m ρ c)
theorem b8_arg4 : W8 m ρ c (Proc.devRef .tc main_arg4) = A4 := (W8_of_ne m ρ c main_arg4 (by decide)).trans (b7_arg4 m ρ c)
theorem b8_arg5 : W8 m ρ c (Proc.devRef .tc main_arg5) = A5 := (W8_of_ne m ρ c main_arg5 (by decide)).trans (b7_arg5 m ρ c)
theorem b8_arg6 : W8 m ρ c (Proc.devRef .tc main_arg6) = A6 := (W8_of_ne m ρ c main_arg6 (by decide)).trans (b7_arg6 m ρ c)
theorem b8_arg7 : W8 m ρ c (Proc.devRef .tc main_arg7) = A7 := (W8_of_ne m ρ c main_arg7 (by decide)).trans (b7_arg7 m ρ c)
theorem b8_arg8 : W8 m ρ c (Proc.devRef .tc main_arg8) = A8 := (W8_of_ne m ρ c main_arg8 (by decide)).trans (b7_arg8 m ρ c)

end Cert.KernelIdeal.Trace

end
-- ==== Proof.Region4.lean ====
/-
  Launch 4 (item rows, layer 2, the last). 20 blocks of 5000 item rows; at point t it reads rows
  5000·t … 5000·t + 4999 of the item features after layer 1 and of their neighbour mean, the whole of layer
  2's item matrices and bias row, and writes the same rows of its result: the layer's entry for that row,
  with no activation. The blocks tile the rows, so after the launch the result array is the layer of the
  arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_4 : (![0, 0] : Fin 2 → Nat) = fun _ => 0 := funext fun a => by fin_cases a <;> rfl
theorem zero1_4 : (![0] : Fin 1 → Nat) = fun _ => 0 := funext fun a => by fin_cases a; rfl

/-- Over the 20 points: the two row-blocked inputs move with the output, block column 0; the matrices and the
    bias sit at block 0; the output's block row is below 20. -/
theorem idx4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (1 : Fin 2) = 0 ∧ win4_5.index t (0 : Fin 2) ≤ 19 :=
  (by decide +kernel : ∀ t : Fin grid4.N, _)

/-- Every block row below 20 is some point's. -/
theorem onto4 : ∀ q0 : Fin 20, ∃ t : Fin cfg4.N, win4_5.index t = ![q0.val, 0] :=
  (by decide +kernel : ∀ q0 : Fin 20, ∃ t : Fin grid4.N, win4_5.index t = ![q0.val, 0])

/-- Row p of the block of the item features at point t is row 5000·(block row) + p of the array. -/
theorem feat4 (c : Dev nD) (t : Fin cfg4.N) (p : Fin 5000) (k : Fin 128) (r : Fin 100000)
    (hr : r.val = win4_5.index t (0 : Fin 2) * 5000 + p.val) :
    iblk4 V c 0 t (ix2 p k) = V c main_v96 (ix2 r k) := by
  obtain ⟨e00, e01, -⟩ := idx4 t
  show V c main_v96 (((cfg4.win 0).blk t).view.emb (ix2 p k)) = V c main_v96 (ix2 r k)
  refine congrArg (V c main_v96) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The same for the neighbour mean. -/
theorem mean4 (c : Dev nD) (t : Fin cfg4.N) (p : Fin 5000) (k : Fin 128) (r : Fin 100000)
    (hr : r.val = win4_5.index t (0 : Fin 2) * 5000 + p.val) :
    iblk4 V c 1 t (ix2 p k) = V c main_v122 (ix2 r k) := by
  obtain ⟨-, -, e10, e11, -⟩ := idx4 t
  show V c main_v122 (((cfg4.win 1).blk t).view.emb (ix2 p k)) = V c main_v122 (ix2 r k)
  refine congrArg (V c main_v122) (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- The one block of each matrix and of the bias row is the whole array. -/
theorem wself4 (c : Dev nD) (t : Fin cfg4.N) : iblk4 V c 2 t = V c main_v143 := by
  obtain ⟨-, -, -, -, e20, e21, -⟩ := idx4 t
  funext j
  show V c main_v143 (((cfg4.win 2).blk t).view.emb j) = V c main_v143 j
  refine congrArg (V c main_v143) (funext fun a => Fin.ext ?_)
  match a with
  | ⟨0, _⟩ => show win4_2.index t (0 : Fin 2) * 128 + 1 * (j 0).val = (j 0).val; omega
  | ⟨1, _⟩ => show win4_2.index t (1 : Fin 2) * 128 + 1 * (j 1).val = (j 1).val; omega
theorem wneigh4 (c : Dev nD) (t : Fin cfg4.N) : iblk4 V c 3 t = V c main_v145 := by
  obtain ⟨-, -, -, -, -, -, e30, e31, -⟩ := idx4 t
  funext j
  show V c main_v145 (((cfg4.win 3).blk t).view.emb j) = V c main_v145 j
  refine congrArg (V c main_v145) (funext fun a => Fin.ext ?_)
  match a with
  | ⟨0, _⟩ => show win4_3.index t (0 : Fin 2) * 128 + 1 * (j 0).val = (j 0).val; omega
  | ⟨1, _⟩ => show win4_3.index t (1 : Fin 2) * 128 + 1 * (j 1).val = (j 1).val; omega
theorem bias4 (c : Dev nD) (t : Fin cfg4.N) : iblk4 V c 4 t = V c main_v147 := by
  obtain ⟨-, -, -, -, -, -, -, -, e40, -⟩ := idx4 t
  funext j
  show V c main_v147 (((cfg4.win 4).blk t).view.emb j) = V c main_v147 j
  refine congrArg (V c main_v147) (funext fun a => Fin.ext ?_)
  match a with
  | ⟨0, _⟩ => show win4_4.index t (0 : Fin 1) * 128 + 1 * (j 0).val = (j 0).val; omega

/-- What the launch leaves in its result, as one function of the arrays it found. -/
abbrev G4 (c : Dev nD) : Cert.ReferenceIdeal.S100000x128.Idx → EReal :=
  Cert.Sage.layerI (F := Ideal) (V c main_v96) (V c main_v122) (V c main_v143) (V c main_v145) (V c main_v147)

/-- What point t writes back is block t of that function. -/
theorem flushed4 (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero zero2_4]
  simp only [View.ld_unit_zero (S := S5000x128) zero2_4, View.ld_unit_zero (S := S128x128) zero2_4, View.ld_unit_zero (S := S128) zero1_4]
  obtain ⟨-, -, -, -, -, -, -, -, -, e51, e5b⟩ := idx4 t
  funext j
  obtain ⟨p, q, rfl⟩ : ∃ (p : Fin 5000) (q : Fin 128), j = ix2 p q := ⟨j 0, j 1, eq_ix2 j⟩
  refine (Cert.Sage.pay4_apply (iblk4 V c 0 t) (iblk4 V c 1 t) (iblk4 V c 2 t) (iblk4 V c 3 t) (iblk4 V c 4 t) p q).trans ?_
  have hp : p.val < 5000 := p.isLt
  let r : Fin 100000 := ⟨win4_5.index t (0 : Fin 2) * 5000 + p.val, by omega⟩
  have hemb : ((cfg4.win 5).blk t).view.emb (ix2 p q) = ix2 r q := by
    funext a; apply Fin.ext
    match a with
    | ⟨0, _⟩ => show win4_5.index t (0 : Fin 2) * 5000 + 1 * p.val = win4_5.index t (0 : Fin 2) * 5000 + p.val; omega
    | ⟨1, _⟩ => show win4_5.index t (1 : Fin 2) * 128 + 1 * q.val = q.val; omega
  show _ = G4 V c (((cfg4.win 5).blk t).view.emb (ix2 p q))
  rw [hemb]
  unfold G4
  rw [Cert.Sage.layerI_apply]
  simp only [feat4 V c t p _ r rfl, mean4 V c t p _ r rfl, wself4 V c t, wneigh4 V c t, bias4 V c t]

/-- An index is in point t's block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v148).slice (win4_5.rect t)).set ↔ _
  rw [View.set_slice_whole, Rect.mem_set_unit]
  exact Iff.rfl

/-- The 20 blocks tile the rows: row r is in block r / 5000. -/
theorem cover4 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After the launch its result array is the layer of the arrays it found. -/
theorem final4 (c : Dev nD) : (dat4 (F := Ideal) V c).arrAt 5 cfg4.N = G4 V c :=
  (dat4 (F := Ideal) V c).arrAt_eq_of_cover 5 (G4 V c) (fun t _ => flushed4 V c t) (cover4)

end Cert.KernelIdeal.Layers

end
-- ==== Proof.Region5.lean ====
/-
  Launch 5 (user rows, layer 2, the last). 10 blocks of 5000 user rows; at point t it reads rows
  5000·t … 5000·t + 4999 of the user features after layer 1 and of their neighbour mean, the whole of layer
  2's user matrices and bias row, and writes the same rows of its result: the layer's entry for that row,
  with no activation. The blocks tile the rows, so after the launch the result array is the layer of the
  arrays the launch found.
-/
import proofs.«165764_j51711406244224_1_alg».proof.Proof.Gen.KernelIdeal.Frame
import proofs.«165764_j51711406244224_1_alg».proof.Proof.LayerMath

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_5 : (![0, 0] : Fin 2 → Nat) = fun _ => 0 := funext fun a => by fin_cases a <;> rfl
theorem zero1_5 : (![0] : Fin 1 → Nat) = fun _ => 0 := funext fun a => by fin_cases a; rfl

/-- Over the 10 points: the two row-blocked inputs move with the output, block column 0; the matrices and the
    bias sit at block 0; the output's block row is below 10. -/
theorem idx5 : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (1 : Fin 2) = 0 ∧ win5_5.index t (0 : Fin 2) ≤ 9 :=
  (by decide +kernel : ∀ t : Fin grid5.N, _)

/-- Every block row below 10 is some point's. -/
theorem onto5 : ∀ q0 : Fin 10, ∃ t : Fin cfg5.N, win5_5.index t = ![q0.val, 0] :=
  (by decide +kernel : ∀ q0 : Fin 10, ∃ t : Fin grid5.N, win5_5.index t = ![q0.val, 0])

/-- Row p of the block of the user features at point t is row 5000·(block row) + p of the array. -/
theorem feat5 (c : Dev nD) (t : Fin cfg5.N) (p : Fin 5000) (k : Fin 128) (r : Fin 50000)
    (hr : r.val = win5_5.index t (0 : Fin 2) * 5000 + p.val) :
    iblk5 V c 0 t (ix2 p k) = V c main_v103 (ix2 r k) := by
  obtain ⟨e00, e01, -⟩ := idx5 t
  show V c main_v103 (((cfg5.win 0).blk t).view.emb (ix2 p k)) = V c main_v103 (ix2 r k)
  refine congrArg (V c main_v103) (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- The same for the neighbour mean. -/
theorem mean5 (c : Dev nD) (t : Fin cfg5.N) (p : Fin 5000) (k : Fin 128) (r : Fin 50000)
    (hr : r.val = win5_5.index t (0 : Fin 2) * 5000 + p.val) :
    iblk5 V c 1 t (ix2 p k) = V c main_v141 (ix2 r k) := by
  obtain ⟨-, -, e10, e11, -⟩ := idx5 t
  show V c main_v141 (((cfg5.win 1).blk t).view.emb (ix2 p k)) = V c main_v141 (ix2 r k)
  refine congrArg (V c main_v141) (funext fun a => Fin.ext ?_)
  match a with
  | ⟨0, _⟩ => show win5_1.index t (0 : Fin 2) * 5000 + 1 * p.val = r.val; omega
  | ⟨1, _⟩ => show win5_1.index t (1 : Fin 2) * 128 + 1 * k.val = k.val; omega

/-- The one block of each matrix and of the bias row is the whole array. -/
theorem wself5 (c : Dev nD) (t : Fin cfg5.N) : iblk5 V c 2 t = V c main_v150 := by
  obtain ⟨-, -, -, -, e20, e21, -⟩ := idx5 t
  funext j
  show V c main_v150 (((cfg5.win 2).blk t).view.emb j) = V c main_v150 j
  refine congrArg (V c main_v150) (funext fun a => Fin.ext ?_)
  match a with
  | ⟨0, _⟩ => show win5_2.index t (0 : Fin 2) * 128 + 1 * (j 0).val = (j 0).val; omega
  | ⟨1, _⟩ => show win5_2.index t (1 : Fin 2) * 128 + 1 * (j 1).val = (j 1).val; omega
theorem wneigh5 (c : Dev nD) (t : Fin cfg5.N) : iblk5 V c 3 t = V c main_v152 := by
  obtain ⟨-, -, -, -, -, -, e30, e31, -⟩ := idx5 t
  funext j
  show V c main_v152 (((cfg5.win 3).blk t).view.emb j) = V c main_v152 j
  refine congrArg (V c main_v152) (funext fun a => Fin.ext ?_)
  match a with
  | ⟨0, _⟩ => show win5_3.index t (0 : Fin 2) * 128 + 1 * (j 0).val = (j 0).val; omega
  | ⟨1, _⟩ => show win5_3.index t (1 : Fin 2) * 128 + 1 * (j 1).val = (j 1).val; omega
theorem bias5 (c : Dev nD) (t : Fin cfg5.N) : iblk5 V c 4 t = V c main_v154 := by
  obtain ⟨-, -, -, -, -, -, -, -, e40, -⟩ := idx5 t
  funext j
  show V c main_v154 (((cfg5.win 4).blk t).view.emb j) = V c main_v154 j
  refine congrArg (V c main_v154) (funext fun a => Fin.ext ?_)
  match a with
  | ⟨0, _⟩ => show win5_4.index t (0 : Fin 1) * 128 + 1 * (j 0).val = (j 0).val; omega

/-- What the launch leaves in its result, as one function of the arrays it found. -/
abbrev G5 (c : Dev nD) : Cert.ReferenceIdeal.S50000x128.Idx → EReal :=
  Cert.Sage.layerU (F := Ideal) (V c main_v103) (V c main_v141) (V c main_v150) (V c main_v152) (V c main_v154)

/-- What point t writes back is block t of that function. -/
theorem flushed5 (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5_5
  rw [View.canon_unit_zero zero2_5]
  simp only [View.ld_unit_zero (S := S5000x128) zero2_5, View.ld_unit_zero (S := S128x128) zero2_5, View.ld_unit_zero (S := S128) zero1_5]
  obtain ⟨-, -, -, -, -, -, -, -, -, e51, e5b⟩ := idx5 t
  funext j
  obtain ⟨p, q, rfl⟩ : ∃ (p : Fin 5000) (q : Fin 128), j = ix2 p q := ⟨j 0, j 1, eq_ix2 j⟩
  refine (Cert.Sage.pay5_apply (iblk5 V c 0 t) (iblk5 V c 1 t) (iblk5 V c 2 t) (iblk5 V c 3 t) (iblk5 V c 4 t) p q).trans ?_
  have hp : p.val < 5000 := p.isLt
  let r : Fin 50000 := ⟨win5_5.index t (0 : Fin 2) * 5000 + p.val, by omega⟩
  have hemb : ((cfg5.win 5).blk t).view.emb (ix2 p q) = ix2 r q := by
    funext a; apply Fin.ext
    match a with
    | ⟨0, _⟩ => show win5_5.index t (0 : Fin 2) * 5000 + 1 * p.val = win5_5.index t (0 : Fin 2) * 5000 + p.val; omega
    | ⟨1, _⟩ => show win5_5.index t (1 : Fin 2) * 128 + 1 * q.val = q.val; omega
  show _ = G5 V c (((cfg5.win 5).blk t).view.emb (ix2 p q))
  rw [hemb]
  unfold G5
  rw [Cert.Sage.layerU_apply]
  simp only [feat5 V c t p _ r rfl, mean5 V c t p _ r rfl, wself5 V c t, wneigh5 V c t, bias5 V c t]

/-- An index is in point t's block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v155).slice (win5_5.rect t)).set ↔ _
  rw [View.set_slice_whole, Rect.mem_set_unit]
  exact Iff.rfl

/-- The 10 blocks tile the rows: row r is in block r / 5000. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- After the launch its result array is the layer of the arrays it found. -/
theorem final5 (c : Dev nD) : (dat5 (F := Ideal) V c).arrAt 5 cfg5.N = G5 V c :=
  (dat5 (F := Ideal) V c).arrAt_eq_of_cover 5 (G5 V c) (fun t _ => flushed5 V c t) (cover5)

end Cert.KernelIdeal.Layers

end
-- ==== Proof.Trace3.lean ====
/-
  Following the arrays through the program, last layer. The fifth host stretch reads the two outputs of
  layer 1: it forms the item neighbour mean of the user features and the user neighbour mean of the item
  features, and slices [2, 0] of the stacked parameters; the sixth host stretch slices [2, 1]. With what
  launches 4 and 5 leave, the program's two results at the last boundary are the specification's user rows
  and item rows after the last layer.
-/
import proofs.«165764_j51711406244224_1_alg».proof.Proof.Trace2
import proofs.«165764_j51711406244224_1_alg».proof.Proof.Region4
import proofs.«165764_j51711406244224_1_alg».proof.Proof.Region5
import Idealize.ShloMosaic.Lib.StableHlo.Run

set_option maxRecDepth 16384
set_option quotPrecheck false

noncomputable section

namespace Cert.KernelIdeal.Trace

open Cert.KernelIdeal Cert.KernelIdeal.Gen Cert.KernelIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "I1" => Cert.Sage.item1 (F := Ideal) A0 A1 A2 A3 A4 A5 A6
local notation "U1" => Cert.Sage.user1 (F := Ideal) A0 A1 A2 A3 A4 A7 A8
local notation "I2" => Cert.Sage.item2 (F := Ideal) A0 A1 A2 A3 A4 A5 A6 A7 A8
local notation "U2" => Cert.Sage.user2 (F := Ideal) A0 A1 A2 A3 A4 A5 A6 A7 A8
local notation "I3" => Cert.Sage.item3 (F := Ideal) A0 A1 A2 A3 A4 A5 A6 A7 A8
local notation "U3" => Cert.Sage.user3 (F := Ideal) A0 A1 A2 A3 A4 A5 A6 A7 A8

/-! ## Before launch 4: the fifth host stretch -/

theorem b9_v96 : W9 m ρ c (Proc.devRef .tc main_v96) = I2 := by
  show StableHlo.after hostOps4 (W8 m ρ c) (Proc.devRef .tc main_v96) = _
  dsimp only [hostOps4]; after_results_simp; exact b8_v96 m ρ c
theorem b9_v103 : W9 m ρ c (Proc.devRef .tc main_v103) = U2 := by
  show StableHlo.after hostOps4 (W8 m ρ c) (Proc.devRef .tc main_v103) = _
  dsimp only [hostOps4]; after_results_simp; exact b8_v103 m ρ c
theorem b9_arg2 : W9 m ρ c (Proc.devRef .tc main_arg2) = A2 := by
  show StableHlo.after hostOps4 (W8 m ρ c) (Proc.devRef .tc main_arg2) = _
  dsimp only [hostOps4]; after_results_simp; exact b8_arg2 m ρ c
theorem b9_arg3 : W9 m ρ c (Proc.devRef .tc main_arg3) = A3 := by
  show StableHlo.after hostOps4 (W8 m ρ c) (Proc.devRef .tc main_arg3) = _
  dsimp only [hostOps4]; after_results_simp; exact b8_arg3 m ρ c
theorem b9_arg4 : W9 m ρ c (Proc.devRef .tc main_arg4) = A4 := by
  show StableHlo.after hostOps4 (W8 m ρ c) (Proc.devRef .tc main_arg4) = _
  dsimp only [hostOps4]; after_results_simp; exact b8_arg4 m ρ c

/-- The item neighbour mean of the user features after layer 1. -/
theorem b9_v122 : W9 m ρ c (Proc.devRef .tc main_v122) = Cert.Sage.meanI (F := Ideal) U2 A5 A6 := by
  show StableHlo.after hostOps4 (W8 m ρ c) (Proc.devRef .tc main_v122) = _
  dsimp only [hostOps4]; after_results_simp
  rw [b8_v103 m ρ c, b8_arg5 m ρ c, b8_arg6 m ρ c]
  unfold Cert.Sage.meanI
  rfl
/-- The user neighbour mean of the item features after layer 1. -/
theorem b9_v141 : W9 m ρ c (Proc.devRef .tc main_v141) = Cert.Sage.meanU (F := Ideal) I2 A7 A8 := by
  show StableHlo.after hostOps4 (W8 m ρ c) (Proc.devRef .tc main_v141) = _
  dsimp only [hostOps4]; after_results_simp
  rw [b8_v96 m ρ c, b8_arg7 m ρ c, b8_arg8 m ρ c]
  unfold Cert.Sage.meanU
  rfl
theorem b9_v143 : W9 m ρ c (Proc.devRef .tc main_v143) = Cert.Sage.mat20 (F := Ideal) A2 := by
  show StableHlo.after hostOps4 (W8 m ρ c) (Proc.devRef .tc main_v143) = _
  dsimp only [hostOps4]; after_results_simp
  rw [b8_arg2 m ρ c]; unfold Cert.Sage.mat20; rfl
theorem b9_v145 : W9 m ρ c (Proc.devRef .tc main_v145) = Cert.Sage.mat20 (F := Ideal) A3 := by
  show StableHlo.after hostOps4 (W8 m ρ c) (Proc.devRef .tc main_v145) = _
  dsimp only [hostOps4]; after_results_simp
  rw [b8_arg3 m ρ c]; unfold Cert.Sage.mat20; rfl
theorem b9_v147 : W9 m ρ c (Proc.devRef .tc main_v147) = Cert.Sage.row20 (F := Ideal) A4 := by
  show StableHlo.after hostOps4 (W8 m ρ c) (Proc.devRef .tc main_v147) = _
  dsimp only [hostOps4]; after_results_simp
  rw [b8_arg4 m ρ c]; unfold Cert.Sage.row20; rfl

/-! ## After launch 4 -/

/-- Launch 4 leaves the item features after the last layer. -/
theorem b10_v148 : W10 m ρ c (Proc.devRef .tc main_v148) = I3 := by
  refine (W10_arr m ρ c 5).trans ((final4 (V9 m ρ) c).trans ?_)
  show Cert.Sage.layerI (F := Ideal) (W9 m ρ c (Proc.devRef .tc main_v96)) (W9 m ρ c (Proc.devRef .tc main_v122))
    (W9 m ρ c (Proc.devRef .tc main_v143)) (W9 m ρ c (Proc.devRef .tc main_v145)) (W9 m ρ c (Proc.devRef .tc main_v147)) = _
  rw [b9_v96 m ρ c, b9_v122 m ρ c, b9_v143 m ρ c, b9_v145 m ρ c, b9_v147 m ρ c]
  rfl

theorem b10_v103 : W10 m ρ c (Proc.devRef .tc main_v103) = U2 := (W10_of_ne m ρ c main_v103 (by decide)).trans (b9_v103 m ρ c)
theorem b10_v141 : W10 m ρ c (Proc.devRef .tc main_v141) = Cert.Sage.meanU (F := Ideal) I2 A7 A8 :=
  (W10_of_ne m ρ c main_v141 (by decide)).trans (b9_v141 m ρ c)
theorem b10_arg2 : W10 m ρ c (Proc.devRef .tc main_arg2) = A2 := (W10_of_ne m ρ c main_arg2 (by decide)).trans (b9_arg2 m ρ c)
theorem b10_arg3 : W10 m ρ c (Proc.devRef .tc main_arg3) = A3 := (W10_of_ne m ρ c main_arg3 (by decide)).trans (b9_arg3 m ρ c)
theorem b10_arg4 : W10 m ρ c (Proc.devRef .tc main_arg4) = A4 := (W10_of_ne m ρ c main_arg4 (by decide)).trans (b9_arg4 m ρ c)

/-! ## Before launch 5: the sixth host stretch -/

theorem b11_v103 : W11 m ρ c (Proc.devRef .tc main_v103) = U2 := by
  show StableHlo.after hostOps5 (W10 m ρ c) (Proc.devRef .tc main_v103) = _
  dsimp only [hostOps5]; after_results_simp; exact b10_v103 m ρ c
theorem b11_v141 : W11 m ρ c (Proc.devRef .tc main_v141) = Cert.Sage.meanU (F := Ideal) I2 A7 A8 := by
  show StableHlo.after hostOps5 (W10 m ρ c) (Proc.devRef .tc main_v141) = _
  dsimp only [hostOps5]; after_results_simp; exact b10_v141 m ρ c
theorem b11_v148 : W11 m ρ c (Proc.devRef .tc main_v148) = I3 := by
  show StableHlo.after hostOps5 (W10 m ρ c) (Proc.devRef .tc main_v148) = _
  dsimp only [hostOps5]; after_results_simp; exact b10_v148 m ρ c
theorem b11_v150 : W11 m ρ c (Proc.devRef .tc main_v150) = Cert.Sage.mat21 (F := Ideal) A2 := by
  show StableHlo.after hostOps5 (W10 m ρ c) (Proc.devRef .tc main_v150) = _
  dsimp only [hostOps5]; after_results_simp
  rw [b10_arg2 m ρ c]; unfold Cert.Sage.mat21; rfl
theorem b11_v152 : W11 m ρ c (Proc.devRef .tc main_v152) = Cert.Sage.mat21 (F := Ideal) A3 := by
  show StableHlo.after hostOps5 (W10 m ρ c) (Proc.devRef .tc main_v152) = _
  dsimp only [hostOps5]; after_results_simp
  rw [b10_arg3 m ρ c]; unfold Cert.Sage.mat21; rfl
theorem b11_v154 : W11 m ρ c (Proc.devRef .tc main_v154) = Cert.Sage.row21 (F := Ideal) A4 := by
  show StableHlo.after hostOps5 (W10 m ρ c) (Proc.devRef .tc main_v154) = _
  dsimp only [hostOps5]; after_results_simp
  rw [b10_arg4 m ρ c]; unfold Cert.Sage.row21; rfl

/-! ## After launch 5: the two results -/

/-- The first result: the user features after the last layer. -/
theorem users : W12 m ρ c (Proc.devRef .tc main_v155) = U3 := by
  refine (W12_arr m ρ c 5).trans ((final5 (V11 m ρ) c).trans ?_)
  show Cert.Sage.layerU (F := Ideal) (W11 m ρ c (Proc.devRef .tc main_v103)) (W11 m ρ c (Proc.devRef .tc main_v141))
    (W11 m ρ c (Proc.devRef .tc main_v150)) (W11 m ρ c (Proc.devRef .tc main_v152)) (W11 m ρ c (Proc.devRef .tc main_v154)) = _
  rw [b11_v103 m ρ c, b11_v141 m ρ c, b11_v150 m ρ c, b11_v152 m ρ c, b11_v154 m ρ c]
  rfl

/-- The second result: the item features after the last layer, kept across launch 5. -/
theorem items : W12 m ρ c (Proc.devRef .tc main_v148) = I3 :=
  (W12_of_ne m ρ c main_v148 (by decide)).trans (b11_v148 m ρ c)

end Cert.KernelIdeal.Trace

end
-- ==== Proof.lean ====
/-
  The kernel and its reference compute the same two arrays over the extended reals.

  The program is three layers of a two-relation graph convolution with mean aggregation over 50000 user rows
  and 100000 item rows of 128 features. One layer of one node type is
      ((h · Ws + mean · Wn) + bias) + h,
  `mean` the mean of the in-neighbours' features (gathered along the edge list, summed into the destination
  rows, divided by max(in-degree, 1)); the first two layers end in max(·, 0). The reference computes every
  layer on whole arrays. The kernel computes the same neighbour means on whole arrays, and each layer of each
  node type in a launch that walks the rows in blocks of 5000, rounding the operands of the two products to a
  shorter float format on the way in.

  Over the extended reals a change of float format is the identity, a product accumulated into zero and a
  whole-array product are both the sum over k of left(row, k) · right(k, column), and an output row of a layer
  reads only the same row of its two inputs. So each launch leaves exactly the layer of the arrays it found
  (Region0 … Region5, over LayerMath), the arrays it finds are the previous layer's and their neighbour means
  (Trace1 … Trace3), and the kernel's two results are the specification's last layer (Spec) of the nine
  arguments — as are the reference's (RefSpec). No law that needs finiteness is used: both sides add and
  multiply the same extended reals in the same order.

  The ideal pass rewrote nothing in the kernel, so the idealized kernel is the kernel's own text read over the
  extended reals, and the three programs run to completion with their arguments unchanged.
-/
import proofs.«165764_j51711406244224_1_alg».proof.Defs
import proofs.«165764_j51711406244224_1_alg».proof.Proof.Gen.Kernel
import proofs.«165764_j51711406244224_1_alg».proof.Proof.Gen.Kernel.Skeleton
import proofs.«165764_j51711406244224_1_alg».proof.Proof.Gen.Kernel.Launch
import proofs.«165764_j51711406244224_1_alg».proof.Proof.Gen.Kernel.Points
import proofs.«165764_j51711406244224_1_alg».proof.Proof.Gen.Kernel.Frame
import proofs.«165764_j51711406244224_1_alg».proof.Proof.Gen.KernelIdeal
import proofs.«165764_j51711406244224_1_alg».proof.Proof.Gen.KernelIdeal.Skeleton
import proofs.«165764_j51711406244224_1_alg».proof.Proof.Gen.KernelIdeal.Launch
import proofs.«165764_j51711406244224_1_alg».proof.Proof.Gen.KernelIdeal.Points
import proofs.«165764_j51711406244224_1_alg».proof.Proof.Gen.KernelIdeal.Frame
import proofs.«165764_j51711406244224_1_alg».proof.Proof.Gen.ReferenceIdeal
import proofs.«165764_j51711406244224_1_alg».proof.Proof.Gen.Pre_finite_inputs
import proofs.«165764_j51711406244224_1_alg».proof.Proof.Gen.ReferenceIdeal.Run
import proofs.«165764_j51711406244224_1_alg».proof.Proof.KernelRun
import proofs.«165764_j51711406244224_1_alg».proof.Proof.RefSpec
import proofs.«165764_j51711406244224_1_alg».proof.Proof.Trace3
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to completion, nothing faulting, its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel: nothing to restate. -/
theorem preserves : Cert.preserves_Kernel_KernelIdeal := trivial

/-- From memories that agree on the nine arguments both programs end with the user rows and the item rows
    of the specification's last layer of those arguments. -/
theorem algebraic : Cert.algebraic_KernelIdeal_ReferenceIdeal := by
  intro m ρ m' ρ' _ hagree
  refine ⟨fun c => Cert.Sage.user3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Sage.item3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.RunValue.run_values (F := Ideal) m ρ)
    obtain ⟨hu, hi, hargs⟩ := h c
    exact ⟨hu.trans (Cert.KernelIdeal.Trace.users m ρ c), hi.trans (Cert.KernelIdeal.Trace.items m ρ c), hargs⟩
  · refine (θ_run Cert.ReferenceIdeal.defs _ _).mono (fun r h c => ?_) (Cert.ReferenceIdeal.Value.run (F := Ideal) m' ρ')
    obtain ⟨hu, hi, hargs⟩ := h c
    obtain ⟨e0, e1, e2, e3, e4, e5, e6, e7, e8⟩ := hagree c
    refine ⟨hu.trans ?_, hi.trans ?_, hargs⟩
    · refine (Cert.ReferenceIdeal.RefValue.users_eq (F := Ideal) m' c).trans ?_
      rw [e0, e1, e2, e3, e4, e5, e6, e7, e8]
    · refine (Cert.ReferenceIdeal.RefValue.items_eq (F := Ideal) m' c).trans ?_
      rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
